-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S320000x128 : Shape := ⟨2, ![320000, 128]⟩
abbrev S320000 : Shape := ⟨1, ![320000]⟩
abbrev S320000x25x19 : Shape := ⟨3, ![320000, 25, 19]⟩
abbrev S90x256 : Shape := ⟨2, ![90, 256]⟩
abbrev S384x128 : Shape := ⟨2, ![384, 128]⟩
abbrev S128 : Shape := ⟨1, ![128]⟩
abbrev S128x128 : Shape := ⟨2, ![128, 128]⟩
abbrev S128x160 : Shape := ⟨2, ![128, 160]⟩
abbrev S160 : Shape := ⟨1, ![160]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S320000x25x19 : S_.BroadcastsInDim S320000x25x19 (![] : Fin 0 → Fin S320000x25x19.rank)
  reducesTo_S320000x25x19_S_d0_1_2 : S320000x25x19.ReducesTo [0, 1, 2] S_
  bcast_S_S90x256 : S_.BroadcastsInDim S90x256 (![] : Fin 0 → Fin S90x256.rank)
  reducesTo_S90x256_S_d0_1 : S90x256.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x160 : S_.BroadcastsInDim S128x160 (![] : Fin 0 → Fin S128x160.rank)
  reducesTo_S128x160_S_d0_1 : S128x160.ReducesTo [0, 1] S_
  bcast_S_S160 : S_.BroadcastsInDim S160 (![] : Fin 0 → Fin S160.rank)
  reducesTo_S160_S_d0 : S160.ReducesTo [0] S_

variable [Facts]

def fn_part3 {F : FTy → Type} [FloatOps F] (main_arg14 : FVec F S128x160 .f32) (main_arg15 : FVec F S160 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x160 .f32 := Host.absf main_arg14
  let main_cst_20 : FVec F S_ .f32 := constant S_ .f32 0x7F800000#32
  let main_v55 : FVec F S128x160 .f32 := broadcastInDim S128x160 ![] bcast_S_S128x160 main_cst_20
  let main_v56 : IVec S128x160 1 := cmpf .olt main_v54 main_v55
  let main_c_21 : IVec S_ 1 := constantI S_ 1 1#1
  let main_v57 : IVec S_ 1 := (fun x v => Host.reduce IntOp.andi x v reducesTo_S128x160_S_d0_1 h_S_) main_v56 main_c_21
  let main_v58 : IVec S_ 1 := andi main_v53 main_v57
  let main_v59 : FVec F S160 .f32 := Host.absf main_arg15
  let main_cst_22 : FVec F S_ .f32 := constant S_ .f32 0x7F800000#32
  let main_v60 : FVec F S160 .f32 := broadcastInDim S160 ![] bcast_S_S160 main_cst_22
  let main_v61 : IVec S160 1 := cmpf .olt main_v59 main_v60
  let main_c_23 : IVec S_ 1 := constantI S_ 1 1#1
  let main_v62 : IVec S_ 1 := (fun x v => Host.reduce IntOp.andi x v reducesTo_S160_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128 .f32) (main_arg13 : FVec F S128 .f32) (main_arg14 : FVec F S128x160 .f32) (main_arg15 : FVec F S160 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x160 .f32) (main_arg15 : FVec F S160 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S20000 32) (main_arg1 : FVec F S320000x128 .f32) (main_arg2 : IVec S320000 32) (main_arg3 : IVec S320000 32) (main_arg4 : FVec F S320000x25x19 .f32) (main_arg5 : FVec F S90x256 .f32) (main_arg6 : FVec F S384x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x160 .f32) (main_arg15 : FVec F S160 .f32) : IVec S_ 1 :=
  let main_v0 : FVec F S320000x128 .f32 := Host.absf main_arg1
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x25x19 .f32 := Host.absf main_arg4
  let main_cst_0 : FVec F S_ .f32 := constant S_ .f32 0x7F800000#32
  let main_v5 : FVec F S320000x25x19 .f32 := broadcastInDim S320000x25x19 ![] bcast_S_S320000x25x19 main_cst_0
  let main_v6 : IVec S320000x25x19 1 := cmpf .olt main_v4 main_v5
  let main_c_1 : IVec S_ 1 := constantI S_ 1 1#1
  let main_v7 : IVec S_ 1 := (fun x v => Host.reduce IntOp.andi x v reducesTo_S320000x25x19_S_d0_1_2 h_S_) main_v6 main_c_1
  let main_v8 : IVec S_ 1 := andi main_v3 main_v7
  let main_v9 : FVec F S90x256 .f32 := Host.absf main_arg5
  let main_cst_2 : FVec F S_ .f32 := constant S_ .f32 0x7F800000#32
  let main_v10 : FVec F S90x256 .f32 := broadcastInDim S90x256 ![] bcast_S_S90x256 main_cst_2
  let main_v11 : IVec S90x256 1 := cmpf .olt main_v9 main_v10
  let main_c_3 : IVec S_ 1 := constantI S_ 1 1#1
  let main_v12 : IVec S_ 1 := (fun x v => Host.reduce IntOp.andi x v reducesTo_S90x256_S_d0_1 h_S_) main_v11 main_c_3
  let main_v13 : IVec S_ 1 := andi main_v8 main_v12
  let main_v14 : FVec F S384x128 .f32 := Host.absf main_arg6
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg7 main_arg8 main_arg9 main_arg10 main_arg11 main_arg12 main_arg13 main_arg14 main_arg15 main_v13 main_v16
-- ==== Kernel.lean ====
abbrev S20000 : Shape := ⟨1, ![20000]⟩
abbrev S320000x128 : Shape := ⟨2, ![320000, 128]⟩
abbrev S320000 : Shape := ⟨1, ![320000]⟩
abbrev S320000x25x19 : Shape := ⟨3, ![320000, 25, 19]⟩
abbrev S90x256 : Shape := ⟨2, ![90, 256]⟩
abbrev S384x128 : Shape := ⟨2, ![384, 128]⟩
abbrev S128 : Shape := ⟨1, ![128]⟩
abbrev S128x128 : Shape := ⟨2, ![128, 128]⟩
abbrev S128x160 : Shape := ⟨2, ![128, 160]⟩
abbrev S160 : Shape := ⟨1, ![160]⟩
abbrev S_ : Shape := ⟨0, ![]⟩
abbrev S20000x1 : Shape := ⟨2, ![20000, 1]⟩
abbrev S20000x256 : Shape := ⟨2, ![20000, 256]⟩
abbrev S20000x128 : Shape := ⟨2, ![20000, 128]⟩
abbrev S320000x1 : Shape := ⟨2, ![320000, 1]⟩
abbrev S320000x25x32 : Shape := ⟨3, ![320000, 25, 32]⟩
abbrev S320x128 : Shape := ⟨2, ![320, 128]⟩
abbrev S320x25x19 : Shape := ⟨3, ![320, 25, 19]⟩
abbrev S320x25x32 : Shape := ⟨3, ![320, 25, 32]⟩
abbrev S1x128 : Shape := ⟨2, ![1, 128]⟩
abbrev S320 : Shape := ⟨1, ![320]⟩
abbrev S320x1 : Shape := ⟨2, ![320, 1]⟩
abbrev S320x160 : Shape := ⟨2, ![320, 160]⟩
abbrev S1x160 : Shape := ⟨2, ![1, 160]⟩
abbrev S320x5x32 : Shape := ⟨3, ![320, 5, 32]⟩
abbrev S320x25x5 : Shape := ⟨3, ![320, 25, 5]⟩
abbrev S20000x25x32 : Shape := ⟨3, ![20000, 25, 32]⟩

abbrev nBuf : Space → Nat
  | .hbm => 56
  | .vmem => 22
  | .smem => 0
  | _ => 0

abbrev bufTy : (tb : Table) → Fin (tcTables nBuf tb) → BufTy
  | .hbm, ⟨0, _⟩ => ⟨S20000, .i32⟩
  | .hbm, ⟨1, _⟩ => ⟨S320000x128, .f32⟩
  | .hbm, ⟨2, _⟩ => ⟨S320000, .i32⟩
  | .hbm, ⟨3, _⟩ => ⟨S320000, .i32⟩
  | .hbm, ⟨4, _⟩ => ⟨S320000x25x19, .f32⟩
  | .hbm, ⟨5, _⟩ => ⟨S90x256, .f32⟩
  | .hbm, ⟨6, _⟩ => ⟨S384x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x160, .f32⟩
  | .hbm, ⟨15, _⟩ => ⟨S160, .f32⟩
  | .hbm, ⟨16, _⟩ => ⟨S_, .i32⟩
  | .hbm, ⟨17, _⟩ => ⟨S20000, .i32⟩
  | .hbm, ⟨18, _⟩ => ⟨S20000, .i1⟩
  | .hbm, ⟨19, _⟩ => ⟨S_, .i32⟩
  | .hbm, ⟨20, _⟩ => ⟨S20000, .i32⟩
  | .hbm, ⟨21, _⟩ => ⟨S20000, .i32⟩
  | .hbm, ⟨22, _⟩ => ⟨S20000, .i32⟩
  | .hbm, ⟨23, _⟩ => ⟨S20000x1, .i32⟩
  | .hbm, ⟨24, _⟩ => ⟨S20000x256, .f32⟩
  | .hbm, ⟨25, _⟩ => ⟨S20000x128, .f32⟩
  | .hbm, ⟨26, _⟩ => ⟨S20000x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S320000x25x32, .f32⟩
  | .hbm, ⟨49, _⟩ => ⟨S_, .f32⟩
  | .hbm, ⟨50, _⟩ => ⟨S20000x25x32, .f32⟩
  | .hbm, ⟨51, _⟩ => ⟨S320000x1, .i32⟩
  | .hbm, ⟨52, _⟩ => ⟨S20000x25x32, .f32⟩
  | .hbm, ⟨53, _⟩ => ⟨S_, .f32⟩
  | .hbm, ⟨54, _⟩ => ⟨S20000x25x32, .f32⟩
  | .hbm, ⟨55, _⟩ => ⟨S20000x25x32, .f32⟩
  | .local _ .vmem, ⟨0, _⟩ => ⟨S320x128, .f32⟩
  | .local _ .vmem, ⟨1, _⟩ => ⟨S320x128, .f32⟩
  | .local _ .vmem, ⟨2, _⟩ => ⟨S320x128, .f32⟩
  | .local _ .vmem, ⟨3, _⟩ => ⟨S320x128, .f32⟩
  | .local _ .vmem, ⟨4, _⟩ => ⟨S320x128, .f32⟩
  | .local _ .vmem, ⟨5, _⟩ => ⟨S320x128, .f32⟩
  | .local _ .vmem, ⟨6, _⟩ => ⟨S320x25x19, .f32⟩
  | .local _ .vmem, ⟨7, _⟩ => ⟨S320x25x19, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x160, .f32⟩
  | .local _ .vmem, ⟨19, _⟩ => ⟨S160, .f32⟩
  | .local _ .vmem, ⟨20, _⟩ => ⟨S320x25x32, .f32⟩
  | .local _ .vmem, ⟨21, _⟩ => ⟨S320x25x32, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x25x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x160 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S320x25x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S20000x256_S20000x128_0_0 : S20000x256.Slices ![0, 0] S20000x128
  slices_S20000x256_S20000x128_0_128 : S20000x256.Slices ![0, 128] S20000x128
  bcast_S_S320000 : S_.BroadcastsInDim S320000 (![] : Fin 0 → Fin S320000.rank)
  bcast_S320000_S320000x1_0 : S320000.BroadcastsInDim S320000x1 (![0] : Fin 1 → Fin S320000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S320x128_S320x128_0_0 : ∀ a, (![0, 0] : Fin 2 → Nat) a + S320x128.size a ≤ S320x128.size a
  h_S320x128 : 0 < S320x128.numel
  bitsLt_bf16_f32 : FTy.bits .bf16 < FTy.bits .f32
  shapeCasts_S320x128_S320x128 : S320x128.ShapeCasts S320x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S320x128 : S1x128.Broadcasts S320x128
  reduces_S320x128_S320 : S320x128.Reduces [1] S320
  shapeCasts_S320_S320x1 : S320.ShapeCasts S320x1
  broadcasts_S320x1_S320x128 : S320x1.Broadcasts S320x128
  inb_S128x160_S128x160_0_0 : ∀ a, (![0, 0] : Fin 2 → Nat) a + S128x160.size a ≤ S128x160.size a
  h_S128x160 : 0 < S128x160.numel
  inb_S160_S160_0 : ∀ a, (![0] : Fin 1 → Nat) a + S160.size a ≤ S160.size a
  h_S160 : 0 < S160.numel
  shapeCasts_S160_S1x160 : S160.ShapeCasts S1x160
  broadcasts_S1x160_S320x160 : S1x160.Broadcasts S320x160
  shapeCasts_S320x160_S320x5x32 : S320x160.ShapeCasts S320x5x32
  inb_S320x25x19_S320x25x5_0_0_0 : ∀ a, (![0, 0, 0] : Fin 3 → Nat) a + S320x25x5.size a ≤ S320x25x19.size a
  h_S320x25x5 : 0 < S320x25x5.numel
  inb_S320x25x32_S320x25x32_0_0_0 : ∀ a, (![0, 0, 0] : Fin 3 → Nat) a + S320x25x32.size a ≤ S320x25x32.size a
  h_S320x25x32 : 0 < S320x25x32.numel
  bcast_S_S20000x25x32 : S_.BroadcastsInDim S20000x25x32 (![] : Fin 0 → Fin S20000x25x32.rank)
  gather_S90x256_S20000x1_S20000x256_1_0_n_n_0_1_1256_wf : GatherDims.WF S90x256 S20000x1 S20000x256 [1] [0] [] [0] [] 1 ![1, 256]
  gather_S20000x128_S320000x1_S320000x128_1_0_n_n_0_1_1128_wf : GatherDims.WF S20000x128 S320000x1 S320000x128 [1] [0] [] [0] [] 1 ![1, 128]
  dot_S320x128_S128x128_S320x128_1_0_0_1_n_n_wf : DotDims.WF S320x128 S128x128 S320x128 [1] [0] [0] [1] [] []
  dot_S320x128_S128x160_S320x160_1_0_0_1_n_n_wf : DotDims.WF S320x128 S128x160 S320x160 [1] [0] [0] [1] [] []
  dot_S320x25x5_S320x5x32_S320x25x32_2_1_1_2_0_0_wf : DotDims.WF S320x25x5 S320x5x32 S320x25x32 [2] [1] [1] [2] [0] [0]
  scatter_S20000x25x32_S320000x1_S320000x25x32_12_0_0_1_wf : ScatterDims.WF S20000x25x32 S320000x1 S320000x25x32 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x128.size a ≤ S320000x128.size a
  hwx0_0 : ∀ i : grid0.Coords, EltTy.bits .f32 = 32 ∨ (Rect.block (s := S320000x128) S320x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320000x128.size a
  hwx0_1 : ∀ i : grid0.Coords, EltTy.bits .f32 = 32 ∨ (Rect.block (s := S320000x128) S320x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x128.size a ≤ S320000x128.size a
  hwx0_2 : ∀ i : grid0.Coords, EltTy.bits .f32 = 32 ∨ (Rect.block (s := S320000x128) S320x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x25x19.size a ≤ S320000x25x19.size a
  hwx0_3 : ∀ i : grid0.Coords, EltTy.bits .f32 = 32 ∨ (Rect.block (s := S320000x25x19) S320x25x19.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x160.size a ≤ S128x160.size a
  hwx0_14 : ∀ i : grid0.Coords, EltTy.bits .f32 = 32 ∨ (Rect.block (s := S128x160) S128x160.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S160.size a ≤ S160.size a
  hwx0_15 : ∀ i : grid0.Coords, EltTy.bits .f32 = 32 ∨ (Rect.block (s := S160) S160.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S320x25x32.size a ≤ S320000x25x32.size a
  hwx0_16 : ∀ i : grid0.Coords, EltTy.bits .f32 = 32 ∨ (Rect.block (s := S320000x25x32) S320x25x32.size (cc0_transform_16 i) (hinb0_16 i)).WholeWords (EltTy.packing .f32)

variable [Facts₀]

def gather_S90x256_S20000x1_S20000x256_1_0_n_n_0_1_1256 : GatherDims S90x256 S20000x1 S20000x256 where
  offsetDims := [1]
  collapsedSliceDims := [0]
  operandBatchingDims := []
  startIndicesBatchingDims := []
  startIndexMap := [0]
  indexVectorDim := 1
  sliceSizes := ![1, 256]
  wf := gather_S90x256_S20000x1_S20000x256_1_0_n_n_0_1_1256_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320x128_S128x128_S320x128_1_0_0_1_n_n : DotDims S320x128 S128x128 S320x128 where
  lhsContracting := [1]
  rhsContracting := [0]
  lhsNonContracting := [0]
  rhsNonContracting := [1]
  lhsBatch := []
  rhsBatch := []
  wf := dot_S320x128_S128x128_S320x128_1_0_0_1_n_n_wf
def dot_S320x128_S128x160_S320x160_1_0_0_1_n_n : DotDims S320x128 S128x160 S320x160 where
  lhsContracting := [1]
  rhsContracting := [0]
  lhsNonContracting := [0]
  rhsNonContracting := [1]
  lhsBatch := []
  rhsBatch := []
  wf := dot_S320x128_S128x160_S320x160_1_0_0_1_n_n_wf
def dot_S320x25x5_S320x5x32_S320x25x32_2_1_1_2_0_0 : DotDims S320x25x5 S320x5x32 S320x25x32 where
  lhsContracting := [2]
  rhsContracting := [1]
  lhsNonContracting := [1]
  rhsNonContracting := [2]
  lhsBatch := [0]
  rhsBatch := [0]
  wf := dot_S320x25x5_S320x5x32_S320x25x32_2_1_1_2_0_0_wf
def scatter_S20000x25x32_S320000x1_S320000x25x32_12_0_0_1 : ScatterDims S20000x25x32 S320000x1 S320000x25x32 where
  updateWindowDims := [1, 2]
  insertedWindowDims := [0]
  scatterDimsToOperandDims := [0]
  indexVectorDim := 1
  wf := scatter_S20000x25x32_S320000x1_S320000x25x32_12_0_0_1_wf

abbrev win0_0 : Pipeline.Window sig grid0 :=
  Pipeline.Window.ofSpec (Memref.whole main_arg1) S320x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S320x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S320x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S320x25x19.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x160.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S160.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S320x25x32.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S20000 : Shape := ⟨1, ![20000]⟩
abbrev S320000x128 : Shape := ⟨2, ![320000, 128]⟩
abbrev S320000 : Shape := ⟨1, ![320000]⟩
abbrev S320000x25x19 : Shape := ⟨3, ![320000, 25, 19]⟩
abbrev S90x256 : Shape := ⟨2, ![90, 256]⟩
abbrev S384x128 : Shape := ⟨2, ![384, 128]⟩
abbrev S128 : Shape := ⟨1, ![128]⟩
abbrev S128x128 : Shape := ⟨2, ![128, 128]⟩
abbrev S128x160 : Shape := ⟨2, ![128, 160]⟩
abbrev S160 : Shape := ⟨1, ![160]⟩
abbrev S_ : Shape := ⟨0, ![]⟩
abbrev S20000x1 : Shape := ⟨2, ![20000, 1]⟩
abbrev S20000x256 : Shape := ⟨2, ![20000, 256]⟩
abbrev S20000x128 : Shape := ⟨2, ![20000, 128]⟩
abbrev S320000x1 : Shape := ⟨2, ![320000, 1]⟩
abbrev S320000x384 : Shape := ⟨2, ![320000, 384]⟩
abbrev S1x128 : Shape := ⟨2, ![1, 128]⟩
abbrev S320000x160 : Shape := ⟨2, ![320000, 160]⟩
abbrev S1x160 : Shape := ⟨2, ![1, 160]⟩
abbrev S320000x5x32 : Shape := ⟨3, ![320000, 5, 32]⟩
abbrev S320000x14x32 : Shape := ⟨3, ![320000, 14, 32]⟩
abbrev S320000x19x32 : Shape := ⟨3, ![320000, 19, 32]⟩
abbrev S320000x25x32 : Shape := ⟨3, ![320000, 25, 32]⟩
abbrev S20000x25x32 : Shape := ⟨3, ![20000, 25, 32]⟩

abbrev nBuf : Space → Nat
  | .hbm => 146
  | .vmem => 0
  | .smem => 0
  | _ => 0

abbrev hbmTy0_0 (i : Nat) : BufTy := match i % 128 with
  | 0 => ⟨S20000, .i32⟩
  | 1 => ⟨S320000x128, .f32⟩
  | 2 => ⟨S320000, .i32⟩
  | 3 => ⟨S320000, .i32⟩
  | 4 => ⟨S320000x25x19, .f32⟩
  | 5 => ⟨S90x256, .f32⟩
  | 6 => ⟨S384x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x160, .f32⟩
  | 15 => ⟨S160, .f32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S20000x256, .f32⟩
  | 25 => ⟨S20000x128, .f32⟩
  | 26 => ⟨S20000x128, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .f32⟩
  | 45 => ⟨S320000x384, .f32⟩
  | 46 => ⟨S320000x128, .f32⟩
  | 47 => ⟨S1x128, .f32⟩
  | 48 => ⟨S320000x128, .f32⟩
  | 49 => ⟨S320000x128, .f32⟩
  | 50 => ⟨S_, .f32⟩
  | 51 => ⟨S320000, .f32⟩
  | 52 => ⟨S320000x1, .f32⟩
  | 53 => ⟨S_, .f32⟩
  | 54 => ⟨S320000x1, .f32⟩
  | 55 => ⟨S320000x1, .f32⟩
  | 56 => ⟨S320000x128, .f32⟩
  | 57 => ⟨S320000x128, .f32⟩
  | 58 => ⟨S320000x128, .f32⟩
  | 59 => ⟨S_, .f32⟩
  | 60 => ⟨S320000, .f32⟩
  | 61 => ⟨S320000x1, .f32⟩
  | 62 => ⟨S_, .f32⟩
  | 63 => ⟨S320000x1, .f32⟩
  | 64 => ⟨S320000x1, .f32⟩
  | 65 => ⟨S320000x128, .f32⟩
  | 66 => ⟨S320000x128, .f32⟩
  | 67 => ⟨S_, .f32⟩
  | 68 => ⟨S320000x1, .f32⟩
  | 69 => ⟨S320000x1, .f32⟩
  | 70 => ⟨S320000x1, .f32⟩
  | 71 => ⟨S320000x128, .f32⟩
  | 72 => ⟨S320000x128, .f32⟩
  | 73 => ⟨S1x128, .f32⟩
  | 74 => ⟨S320000x128, .f32⟩
  | 75 => ⟨S320000x128, .f32⟩
  | 76 => ⟨S1x128, .f32⟩
  | 77 => ⟨S320000x128, .f32⟩
  | 78 => ⟨S320000x128, .f32⟩
  | 79 => ⟨S320000x128, .f32⟩
  | 80 => ⟨S320000x128, .f32⟩
  | 81 => ⟨S_, .f32⟩
  | 82 => ⟨S320000x128, .f32⟩
  | 83 => ⟨S320000x128, .f32⟩
  | 84 => ⟨S_, .f32⟩
  | 85 => ⟨S320000x128, .f32⟩
  | 86 => ⟨S320000x128, .f32⟩
  | 87 => ⟨S320000x128, .f32⟩
  | 88 => ⟨S320000x128, .f32⟩
  | 89 => ⟨S1x128, .f32⟩
  | 90 => ⟨S320000x128, .f32⟩
  | 91 => ⟨S320000x128, .f32⟩
  | 92 => ⟨S_, .f32⟩
  | 93 => ⟨S320000, .f32⟩
  | 94 => ⟨S320000x1, .f32⟩
  | 95 => ⟨S_, .f32⟩
  | 96 => ⟨S320000x1, .f32⟩
  | 97 => ⟨S320000x1, .f32⟩
  | 98 => ⟨S320000x128, .f32⟩
  | 99 => ⟨S320000x128, .f32⟩
  | 100 => ⟨S320000x128, .f32⟩
  | 101 => ⟨S_, .f32⟩
  | 102 => ⟨S320000, .f32⟩
  | 103 => ⟨S320000x1, .f32⟩
  | 104 => ⟨S_, .f32⟩
  | 105 => ⟨S320000x1, .f32⟩
  | 106 => ⟨S320000x1, .f32⟩
  | 107 => ⟨S320000x128, .f32⟩
  | 108 => ⟨S320000x128, .f32⟩
  | 109 => ⟨S_, .f32⟩
  | 110 => ⟨S320000x1, .f32⟩
  | 111 => ⟨S320000x1, .f32⟩
  | 112 => ⟨S320000x1, .f32⟩
  | 113 => ⟨S320000x128, .f32⟩
  | 114 => ⟨S320000x128, .f32⟩
  | 115 => ⟨S1x128, .f32⟩
  | 116 => ⟨S320000x128, .f32⟩
  | 117 => ⟨S320000x128, .f32⟩
  | 118 => ⟨S1x128, .f32⟩
  | 119 => ⟨S320000x128, .f32⟩
  | 120 => ⟨S320000x128, .f32⟩
  | 121 => ⟨S320000x128, .f32⟩
  | 122 => ⟨S320000x128, .f32⟩
  | 123 => ⟨S_, .f32⟩
  | 124 => ⟨S320000x128, .f32⟩
  | 125 => ⟨S320000x128, .f32⟩
  | 126 => ⟨S_, .f32⟩
  | 127 => ⟨S320000x128, .f32⟩
  | _ => ⟨S20000, .i32⟩

abbrev hbmTy0_1 (i : Nat) : BufTy := match i % 128 with
  | 0 => ⟨S320000x128, .f32⟩
  | 1 => ⟨S320000x128, .f32⟩
  | 2 => ⟨S320000x160, .f32⟩
  | 3 => ⟨S1x160, .f32⟩
  | 4 => ⟨S320000x160, .f32⟩
  | 5 => ⟨S320000x160, .f32⟩
  | 6 => ⟨S320000x5x32, .f32⟩
  | 7 => ⟨S_, .f32⟩
  | 8 => ⟨S320000x14x32, .f32⟩
  | 9 => ⟨S320000x19x32, .f32⟩
  | 10 => ⟨S320000x25x32, .f32⟩
  | 11 => ⟨S_, .f32⟩
  | 12 => ⟨S20000x25x32, .f32⟩
  | 13 => ⟨S320000x1, .i32⟩
  | 14 => ⟨S20000x25x32, .f32⟩
  | 15 => ⟨S_, .f32⟩
  | 16 => ⟨S20000x25x32, .f32⟩
  | 17 => ⟨S20000x25x32, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_9 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_cst_12 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call1_v0 : Ref sig .tc := ⟨.hbm, 121, rfl⟩
abbrev main_call1_v1 : Ref sig .tc := ⟨.hbm, 122, rfl⟩
abbrev main_call1_cst : Ref sig .tc := ⟨.hbm, 123, rfl⟩
abbrev main_call1_v2 : Ref sig .tc := ⟨.hbm, 124, rfl⟩
abbrev main_call1_v3 : Ref sig .tc := ⟨.hbm, 125, rfl⟩
abbrev main_call1_cst_0 : Ref sig .tc := ⟨.hbm, 126, rfl⟩
abbrev main_call1_v4 : Ref sig .tc := ⟨.hbm, 127, rfl⟩
abbrev main_call1_v5 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_14 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_16 : Ref sig .tc := ⟨.hbm, 143, rfl⟩
abbrev main_v93 : Ref sig .tc := ⟨.hbm, 144, rfl⟩
abbrev main_v94 : Ref sig .tc := ⟨.hbm, 145, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S20000x256_S20000x128_0_0 : S20000x256.Slices ![0, 0] S20000x128
  slices_S20000x256_S20000x128_0_128 : S20000x256.Slices ![0, 128] S20000x128
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x128_S320000x384_d1 : Shape.Concatenates [S320000x128, S320000x128, S320000x128] S320000x384 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  reducesTo_S320000x128_S320000_d1 : S320000x128.ReducesTo [1] S320000
  h_S_ : 0 < S_.numel
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  bcast_S_S320000x128 : S_.BroadcastsInDim S320000x128 (![] : Fin 0 → Fin S320000x128.rank)
  bcast_S160_S1x160_1 : S160.BroadcastsInDim S1x160 (![1] : Fin 1 → Fin S1x160.rank)
  bcast_S1x160_S320000x160_0_1 : S1x160.BroadcastsInDim S320000x160 (![0, 1] : Fin 2 → Fin S320000x160.rank)
  shapeCasts_S320000x160_S320000x5x32 : S320000x160.ShapeCasts S320000x5x32
  bcast_S_S320000x14x32 : S_.BroadcastsInDim S320000x14x32 (![] : Fin 0 → Fin S320000x14x32.rank)
  concatenates_S320000x5x32_S320000x14x32_S320000x19x32_d1 : Shape.Concatenates [S320000x5x32, S320000x14x32] S320000x19x32 1
  bcast_S_S20000x25x32 : S_.BroadcastsInDim S20000x25x32 (![] : Fin 0 → Fin S20000x25x32.rank)
  gather_S90x256_S20000x1_S20000x256_1_0_n_n_0_1_1256_wf : GatherDims.WF S90x256 S20000x1 S20000x256 [1] [0] [] [0] [] 1 ![1, 256]
  gather_S20000x128_S320000x1_S320000x128_1_0_n_n_0_1_1128_wf : GatherDims.WF S20000x128 S320000x1 S320000x128 [1] [0] [] [0] [] 1 ![1, 128]
  dot_S320000x384_S384x128_S320000x128_1_0_0_1_n_n_wf : DotDims.WF S320000x384 S384x128 S320000x128 [1] [0] [0] [1] [] []
  dot_S320000x128_S128x128_S320000x128_1_0_0_1_n_n_wf : DotDims.WF S320000x128 S128x128 S320000x128 [1] [0] [0] [1] [] []
  dot_S320000x128_S128x160_S320000x160_1_0_0_1_n_n_wf : DotDims.WF S320000x128 S128x160 S320000x160 [1] [0] [0] [1] [] []
  dot_S320000x25x19_S320000x19x32_S320000x25x32_2_1_1_2_0_0_wf : DotDims.WF S320000x25x19 S320000x19x32 S320000x25x32 [2] [1] [1] [2] [0] [0]
  scatter_S20000x25x32_S320000x1_S320000x25x32_12_0_0_1_wf : ScatterDims.WF S20000x25x32 S320000x1 S320000x25x32 [1, 2] [0] [0] 1

variable [Facts₀]

def gather_S90x256_S20000x1_S20000x256_1_0_n_n_0_1_1256 : GatherDims S90x256 S20000x1 S20000x256 where
  offsetDims := [1]
  collapsedSliceDims := [0]
  operandBatchingDims := []
  startIndicesBatchingDims := []
  startIndexMap := [0]
  indexVectorDim := 1
  sliceSizes := ![1, 256]
  wf := gather_S90x256_S20000x1_S20000x256_1_0_n_n_0_1_1256_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x160_S320000x160_1_0_0_1_n_n : DotDims S320000x128 S128x160 S320000x160 where
  lhsContracting := [1]
  rhsContracting := [0]
  lhsNonContracting := [0]
  rhsNonContracting := [1]
  lhsBatch := []
  rhsBatch := []
  wf := dot_S320000x128_S128x160_S320000x160_1_0_0_1_n_n_wf
def dot_S320000x25x19_S320000x19x32_S320000x25x32_2_1_1_2_0_0 : DotDims S320000x25x19 S320000x19x32 S320000x25x32 where
  lhsContracting := [2]
  rhsContracting := [1]
  lhsNonContracting := [1]
  rhsNonContracting := [2]
  lhsBatch := [0]
  rhsBatch := [0]
  wf := dot_S320000x25x19_S320000x19x32_S320000x25x32_2_1_1_2_0_0_wf
def scatter_S20000x25x32_S320000x1_S320000x25x32_12_0_0_1 : ScatterDims S20000x25x32 S320000x1 S320000x25x32 where
  updateWindowDims := [1, 2]
  insertedWindowDims := [0]
  scatterDimsToOperandDims := [0]
  indexVectorDim := 1
  wf := scatter_S20000x25x32_S320000x1_S320000x25x32_12_0_0_1_wf

class Facts : Prop extends Facts₀ where

variable [Facts]
-- ==== Proof.Spec.lean ====
/-
  One edge's message, as a function of that edge's own data.

  For an edge with embedding row `x`, sender and receiver embedding rows `s` and `r` (128 entries each), and a
  25 × 19 rotation matrix `wig`, the message is computed in four steps, all on extended reals:

    h₀ = x·Wₑ + s·Wₛ + r·Wᵣ + b₀                      (three 128-term products summed, then the bias)
    a₀ = silu (norm h₀ · g₀ + β₀)                      (layer norm over the 128 entries, then x · σ(x))
    a₁ = silu (norm (a₀·W₁ + b₁) · g₁ + β₁)
    o  = a₁·W₂ + b₂                                    (160 entries, read as a 5 × 32 matrix, row-major)
    message k c = ∑ m < 5, wig k m · o (32 m + c)      (only the first five columns of `wig` take part)

  where `norm h j = (h j − μ) · rsqrt (v + ε)`, `μ = (∑ h) / 128`, `v = (∑ (h − μ)²) / 128`, and ε is the
  single-precision word nearest 10⁻⁶. Nothing here is rounded; a sum is a finite sum in the extended reals, where
  addition is commutative and associative and a product with zero is zero.
-/
import Idealize.ShloMosaic.PureOps.Ideal
import Idealize.ShloMosaic.PureOps.Ideal.Laws
import Idealize.ShloMosaic.Lib.ValueIdx

noncomputable section

namespace Cert.EdgeMsg

open Idealize.ShloMosaic

/-- The row length 128 as the single-precision word the programs divide by. -/
def c128 : EReal := Ideal.ofBits .f32 0x43000000#32
/-- The variance offset ε: the single-precision word nearest 10⁻⁶. -/
def eps : EReal := Ideal.ofBits .f32 0x358637BD#32

/-- The mean of a row of 128 entries: their sum divided by 128. -/
def rowMean (h : Fin 128 → EReal) : EReal := Ideal.div (∑ j, h j) c128
/-- The (biased) variance of a row: the mean of the squared deviations from the row's mean. -/
def rowVar (h : Fin 128 → EReal) : EReal := Ideal.div (∑ j, (h j - rowMean h) * (h j - rowMean h)) c128
/-- The normalised row scaled by the gain `g`: `(h j − μ) · rsqrt (v + ε) · g j`. -/
def normed (h g : Fin 128 → EReal) (j : Fin 128) : EReal :=
  (h j - rowMean h) * Ideal.rsqrt (rowVar h + eps) * g j
/-- `silu y = y · σ(y)`, with σ the logistic function. -/
def silu (y : EReal) : EReal := y * Ideal.logistic y
/-- Layer norm with gain `g` and offset `b`, followed by silu. -/
def act (h g b : Fin 128 → EReal) (j : Fin 128) : EReal := silu (normed h g j + b j)
/-- A row times a 128 × n matrix, plus a bias. -/
def dense {n : Nat} (x : Fin 128 → EReal) (W : Fin 128 → Fin n → EReal) (b : Fin n → EReal) (j : Fin n) : EReal :=
  (∑ i, x i * W i j) + b j
/-- The first layer before its norm: the three products, summed left to right, then the bias. -/
def hidden0 (x s r : Fin 128 → EReal) (We Ws Wr : Fin 128 → Fin 128 → EReal) (b0 : Fin 128 → EReal) (j : Fin 128) : EReal :=
  (∑ i, x i * We i j) + (∑ i, s i * Ws i j) + (∑ i, r i * Wr i j) + b0 j
/-- Entry `(m, c)` of a 5 × 32 matrix stored row-major in 160 entries. -/
def flat (m : Fin 5) (c : Fin 32) : Fin 160 := ⟨m.val * 32 + c.val, by have := m.isLt; have := c.isLt; omega⟩
/-- The first five of nineteen columns. -/
def col5 (m : Fin 5) : Fin 19 := ⟨m.val, by have := m.isLt; omega⟩

/-- Rows 0–127, 128–255 and 256–383 of the 384-row first-layer matrix: the parts that multiply the edge embedding,
    the sender embedding and the receiver embedding. -/
def rowE (i : Fin 128) : Fin 384 := ⟨i.val, by have := i.isLt; omega⟩
def rowS (i : Fin 128) : Fin 384 := ⟨128 + i.val, by have := i.isLt; omega⟩
def rowR (i : Fin 128) : Fin 384 := ⟨256 + i.val, by have := i.isLt; omega⟩

/-- The message of one edge: the 5 × 32 output of the three-layer network rotated by the first five columns of the
    edge's 25 × 19 matrix. -/
def edgeOut (x s r : Fin 128 → EReal) (wig : Fin 25 → Fin 19 → EReal)
    (We Ws Wr : Fin 128 → Fin 128 → EReal) (b0 g0 be0 : Fin 128 → EReal)
    (W1 : Fin 128 → Fin 128 → EReal) (b1 g1 be1 : Fin 128 → EReal)
    (W2 : Fin 128 → Fin 160 → EReal) (b2 : Fin 160 → EReal) (k : Fin 25) (c : Fin 32) : EReal :=
  ∑ m : Fin 5, wig k (col5 m) *
    dense (act (dense (act (hidden0 x s r We Ws Wr b0) g0 be0) W1 b1) g1 be1) W2 b2 (flat m c)

end Cert.EdgeMsg

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayOps.lean ====
/-
  The kernel body's operations that are not entry-by-entry, each read at explicit coordinates over the extended reals:
  a matrix product into a zero accumulator is the sum over the contracted coordinate; a sum along a row is the sum of
  the row's entries; a vector laid out as one row and repeated down the rows reads the vector at the column; a column
  of per-row numbers repeated along the rows reads the row's number; 160 entries read as 5 × 32 are row-major; the
  leading 25 × 5 corner of a 25 × 19 matrix reads the matrix at the same coordinates.
-/
import proofs.«167719_j84859963834920_2_alg».proof.Proof.Gen.KernelIdeal.Frame
import proofs.«167719_j84859963834920_2_alg».proof.Proof.Spec
import proofs.«167719_j84859963834920_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBlock

open Cert.KernelIdeal Cert.KernelIdeal.Gen Idealize.ShloMosaic Idealize.ShloMosaic.ValueIdx

/-! ## Entry-by-entry operations the library's index lemmas do not name -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## Matrix products

Each operand's index at an output index and a contraction index, one coordinate at a time; then the product as a sum. -/

theorem lhs_S320x128_S128x128_0 (i : S320x128.Idx) (q : dot_S320x128_S128x128_S320x128_1_0_0_1_n_n.contr.Idx) :
    (dot_S320x128_S128x128_S320x128_1_0_0_1_n_n.lhsIdx i q 0).val = (i 0).val := by
  unfold DotDims.lhsIdx
  rw [dif_neg (show ¬(0 : Fin S320x128.rank) ∈ dot_S320x128_S128x128_S320x128_1_0_0_1_n_n.lhsBatch by decide), dif_pos (show (0 : Fin S320x128.rank) ∈ dot_S320x128_S128x128_S320x128_1_0_0_1_n_n.lhsNonContracting by decide)]
  rfl
theorem lhs_S320x128_S128x128_1 (i : S320x128.Idx) (q : dot_S320x128_S128x128_S320x128_1_0_0_1_n_n.contr.Idx) :
    (dot_S320x128_S128x128_S320x128_1_0_0_1_n_n.lhsIdx i q 1).val = (q ⟨0, by decide⟩).val :=
  dot_S320x128_S128x128_S320x128_1_0_0_1_n_n.lhsIdx_val_of_single rfl i q
theorem rhs_S320x128_S128x128_0 (i : S320x128.Idx) (q : dot_S320x128_S128x128_S320x128_1_0_0_1_n_n.contr.Idx) :
    (dot_S320x128_S128x128_S320x128_1_0_0_1_n_n.rhsIdx i q 0).val = (q ⟨0, by decide⟩).val :=
  dot_S320x128_S128x128_S320x128_1_0_0_1_n_n.rhsIdx_val_of_single rfl i q
theorem rhs_S320x128_S128x128_1 (i : S320x128.Idx) (q : dot_S320x128_S128x128_S320x128_1_0_0_1_n_n.contr.Idx) :
    (dot_S320x128_S128x128_S320x128_1_0_0_1_n_n.rhsIdx i q 1).val = (i 1).val := by
  unfold DotDims.rhsIdx
  rw [dif_neg (show ¬(1 : Fin S128x128.rank) ∈ dot_S320x128_S128x128_S320x128_1_0_0_1_n_n.rhsBatch by decide), dif_pos (show (1 : Fin S128x128.rank) ∈ dot_S320x128_S128x128_S320x128_1_0_0_1_n_n.rhsNonContracting by decide)]
  rfl

/-- A 320 × 128 block times a 128 × 128 matrix, into zero: entry (p, j) is the sum over i of X(p, i) · W(i, j). -/
theorem matmul_128_apply (X : FVec Ideal S320x128 .bf16) (W : FVec Ideal S128x128 .bf16) (p : Fin 320) (j : Fin 128) :
    matmul dot_S320x128_S128x128_S320x128_1_0_0_1_n_n none X W (constant S320x128 .f32 0x00000000#32) (ix2 p j)
      = ∑ i : Fin 128, X (ix2 p i) * W (ix2 i j) := by
  refine (Ideal.matmul_constant_zero_apply dot_S320x128_S128x128_S320x128_1_0_0_1_n_n none _ _ _).trans ?_
  rw [← Equiv.sum_comp (contrEquiv1 dot_S320x128_S128x128_S320x128_1_0_0_1_n_n 128 rfl rfl).symm]
  refine Finset.sum_congr rfl fun i _ => ?_
  have hi := contrEquiv1_symm_val dot_S320x128_S128x128_S320x128_1_0_0_1_n_n 128 rfl rfl i
  have el : dot_S320x128_S128x128_S320x128_1_0_0_1_n_n.lhsIdx (ix2 p j) ((contrEquiv1 dot_S320x128_S128x128_S320x128_1_0_0_1_n_n 128 rfl rfl).symm i) = ix2 p i := funext fun a => Fin.ext (by
    match a with
    | ⟨0, _⟩ => exact lhs_S320x128_S128x128_0 _ _
    | ⟨1, _⟩ => exact (lhs_S320x128_S128x128_1 _ _).trans hi)
  have er : dot_S320x128_S128x128_S320x128_1_0_0_1_n_n.rhsIdx (ix2 p j) ((contrEquiv1 dot_S320x128_S128x128_S320x128_1_0_0_1_n_n 128 rfl rfl).symm i) = ix2 i j := funext fun a => Fin.ext (by
    match a with
    | ⟨0, _⟩ => exact (rhs_S320x128_S128x128_0 _ _).trans hi
    | ⟨1, _⟩ => exact rhs_S320x128_S128x128_1 _ _)
  rw [el, er]

theorem lhs_S320x128_S128x160_0 (i : S320x160.Idx) (q : dot_S320x128_S128x160_S320x160_1_0_0_1_n_n.contr.Idx) :
    (dot_S320x128_S128x160_S320x160_1_0_0_1_n_n.lhsIdx i q 0).val = (i 0).val := by
  unfold DotDims.lhsIdx
  rw [dif_neg (show ¬(0 : Fin S320x128.rank) ∈ dot_S320x128_S128x160_S320x160_1_0_0_1_n_n.lhsBatch by decide), dif_pos (show (0 : Fin S320x128.rank) ∈ dot_S320x128_S128x160_S320x160_1_0_0_1_n_n.lhsNonContracting by decide)]
  rfl
theorem lhs_S320x128_S128x160_1 (i : S320x160.Idx) (q : dot_S320x128_S128x160_S320x160_1_0_0_1_n_n.contr.Idx) :
    (dot_S320x128_S128x160_S320x160_1_0_0_1_n_n.lhsIdx i q 1).val = (q ⟨0, by decide⟩).val :=
  dot_S320x128_S128x160_S320x160_1_0_0_1_n_n.lhsIdx_val_of_single rfl i q
theorem rhs_S320x128_S128x160_0 (i : S320x160.Idx) (q : dot_S320x128_S128x160_S320x160_1_0_0_1_n_n.contr.Idx) :
    (dot_S320x128_S128x160_S320x160_1_0_0_1_n_n.rhsIdx i q 0).val = (q ⟨0, by decide⟩).val :=
  dot_S320x128_S128x160_S320x160_1_0_0_1_n_n.rhsIdx_val_of_single rfl i q
theorem rhs_S320x128_S128x160_1 (i : S320x160.Idx) (q : dot_S320x128_S128x160_S320x160_1_0_0_1_n_n.contr.Idx) :
    (dot_S320x128_S128x160_S320x160_1_0_0_1_n_n.rhsIdx i q 1).val = (i 1).val := by
  unfold DotDims.rhsIdx
  rw [dif_neg (show ¬(1 : Fin S128x160.rank) ∈ dot_S320x128_S128x160_S320x160_1_0_0_1_n_n.rhsBatch by decide), dif_pos (show (1 : Fin S128x160.rank) ∈ dot_S320x128_S128x160_S320x160_1_0_0_1_n_n.rhsNonContracting by decide)]
  rfl

/-- A 320 × 128 block times a 128 × 160 matrix, into zero. -/
theorem matmul_160_apply (X : FVec Ideal S320x128 .bf16) (W : FVec Ideal S128x160 .bf16) (p : Fin 320) (j : Fin 160) :
    matmul dot_S320x128_S128x160_S320x160_1_0_0_1_n_n none X W (constant S320x160 .f32 0x00000000#32) (ix2 p j)
      = ∑ i : Fin 128, X (ix2 p i) * W (ix2 i j) := by
  refine (Ideal.matmul_constant_zero_apply dot_S320x128_S128x160_S320x160_1_0_0_1_n_n none _ _ _).trans ?_
  rw [← Equiv.sum_comp (contrEquiv1 dot_S320x128_S128x160_S320x160_1_0_0_1_n_n 128 rfl rfl).symm]
  refine Finset.sum_congr rfl fun i _ => ?_
  have hi := contrEquiv1_symm_val dot_S320x128_S128x160_S320x160_1_0_0_1_n_n 128 rfl rfl i
  have el : dot_S320x128_S128x160_S320x160_1_0_0_1_n_n.lhsIdx (ix2 p j) ((contrEquiv1 dot_S320x128_S128x160_S320x160_1_0_0_1_n_n 128 rfl rfl).symm i) = ix2 p i := funext fun a => Fin.ext (by
    match a with
    | ⟨0, _⟩ => exact lhs_S320x128_S128x160_0 _ _
    | ⟨1, _⟩ => exact (lhs_S320x128_S128x160_1 _ _).trans hi)
  have er : dot_S320x128_S128x160_S320x160_1_0_0_1_n_n.rhsIdx (ix2 p j) ((contrEquiv1 dot_S320x128_S128x160_S320x160_1_0_0_1_n_n 128 rfl rfl).symm i) = ix2 i j := funext fun a => Fin.ext (by
    match a with
    | ⟨0, _⟩ => exact (rhs_S320x128_S128x160_0 _ _).trans hi
    | ⟨1, _⟩ => exact rhs_S320x128_S128x160_1 _ _)
  rw [el, er]

theorem lhs_S320x25x5_S320x5x32_0 (i : S320x25x32.Idx) (q : dot_S320x25x5_S320x5x32_S320x25x32_2_1_1_2_0_0.contr.Idx) :
    (dot_S320x25x5_S320x5x32_S320x25x32_2_1_1_2_0_0.lhsIdx i q 0).val = (i 0).val := by
  unfold DotDims.lhsIdx
  rw [dif_pos (show (0 : Fin S320x25x5.rank) ∈ dot_S320x25x5_S320x5x32_S320x25x32_2_1_1_2_0_0.lhsBatch by decide)]
  rfl
theorem lhs_S320x25x5_S320x5x32_1 (i : S320x25x32.Idx) (q : dot_S320x25x5_S320x5x32_S320x25x32_2_1_1_2_0_0.contr.Idx) :
    (dot_S320x25x5_S320x5x32_S320x25x32_2_1_1_2_0_0.lhsIdx i q 1).val = (i 1).val := by
  unfold DotDims.lhsIdx
  rw [dif_neg (show ¬(1 : Fin S320x25x5.rank) ∈ dot_S320x25x5_S320x5x32_S320x25x32_2_1_1_2_0_0.lhsBatch by decide), dif_pos (show (1 : Fin S320x25x5.rank) ∈ dot_S320x25x5_S320x5x32_S320x25x32_2_1_1_2_0_0.lhsNonContracting by decide)]
  rfl
theorem lhs_S320x25x5_S320x5x32_2 (i : S320x25x32.Idx) (q : dot_S320x25x5_S320x5x32_S320x25x32_2_1_1_2_0_0.contr.Idx) :
    (dot_S320x25x5_S320x5x32_S320x25x32_2_1_1_2_0_0.lhsIdx i q 2).val = (q ⟨0, by decide⟩).val :=
  dot_S320x25x5_S320x5x32_S320x25x32_2_1_1_2_0_0.lhsIdx_val_of_single rfl i q
theorem rhs_S320x25x5_S320x5x32_0 (i : S320x25x32.Idx) (q : dot_S320x25x5_S320x5x32_S320x25x32_2_1_1_2_0_0.contr.Idx) :
    (dot_S320x25x5_S320x5x32_S320x25x32_2_1_1_2_0_0.rhsIdx i q 0).val = (i 0).val := by
  unfold DotDims.rhsIdx
  rw [dif_pos (show (0 : Fin S320x5x32.rank) ∈ dot_S320x25x5_S320x5x32_S320x25x32_2_1_1_2_0_0.rhsBatch by decide)]
  rfl
theorem rhs_S320x25x5_S320x5x32_1 (i : S320x25x32.Idx) (q : dot_S320x25x5_S320x5x32_S320x25x32_2_1_1_2_0_0.contr.Idx) :
    (dot_S320x25x5_S320x5x32_S320x25x32_2_1_1_2_0_0.rhsIdx i q 1).val = (q ⟨0, by decide⟩).val :=
  dot_S320x25x5_S320x5x32_S320x25x32_2_1_1_2_0_0.rhsIdx_val_of_single rfl i q
theorem rhs_S320x25x5_S320x5x32_2 (i : S320x25x32.Idx) (q : dot_S320x25x5_S320x5x32_S320x25x32_2_1_1_2_0_0.contr.Idx) :
    (dot_S320x25x5_S320x5x32_S320x25x32_2_1_1_2_0_0.rhsIdx i q 2).val = (i 2).val := by
  unfold DotDims.rhsIdx
  rw [dif_neg (show ¬(2 : Fin S320x5x32.rank) ∈ dot_S320x25x5_S320x5x32_S320x25x32_2_1_1_2_0_0.rhsBatch by decide), dif_pos (show (2 : Fin S320x5x32.rank) ∈ dot_S320x25x5_S320x5x32_S320x25x32_2_1_1_2_0_0.rhsNonContracting by decide)]
  rfl

/-- The per-edge product: for each of the 320 edges a 25 × 5 matrix times a 5 × 32 matrix, into zero: entry (p, k, c)
    is the sum over m of A(p, k, m) · B(p, m, c). -/
theorem matmul_rot_apply (A : FVec Ideal S320x25x5 .bf16) (B : FVec Ideal S320x5x32 .bf16) (p : Fin 320) (k : Fin 25) (c : Fin 32) :
    matmul dot_S320x25x5_S320x5x32_S320x25x32_2_1_1_2_0_0 none A B (constant S320x25x32 .f32 0x00000000#32) (ix3 p k c)
      = ∑ m : Fin 5, A (ix3 p k m) * B (ix3 p m c) := by
  refine (Ideal.matmul_constant_zero_apply dot_S320x25x5_S320x5x32_S320x25x32_2_1_1_2_0_0 none _ _ _).trans ?_
  rw [← Equiv.sum_comp (contrEquiv1 dot_S320x25x5_S320x5x32_S320x25x32_2_1_1_2_0_0 5 rfl rfl).symm]
  refine Finset.sum_congr rfl fun m _ => ?_
  have hm := contrEquiv1_symm_val dot_S320x25x5_S320x5x32_S320x25x32_2_1_1_2_0_0 5 rfl rfl m
  have el : dot_S320x25x5_S320x5x32_S320x25x32_2_1_1_2_0_0.lhsIdx (ix3 p k c) ((contrEquiv1 dot_S320x25x5_S320x5x32_S320x25x32_2_1_1_2_0_0 5 rfl rfl).symm m) = ix3 p k m := funext fun a => Fin.ext (by
    match a with
    | ⟨0, _⟩ => exact lhs_S320x25x5_S320x5x32_0 _ _
    | ⟨1, _⟩ => exact lhs_S320x25x5_S320x5x32_1 _ _
    | ⟨2, _⟩ => exact (lhs_S320x25x5_S320x5x32_2 _ _).trans hm)
  have er : dot_S320x25x5_S320x5x32_S320x25x32_2_1_1_2_0_0.rhsIdx (ix3 p k c) ((contrEquiv1 dot_S320x25x5_S320x5x32_S320x25x32_2_1_1_2_0_0 5 rfl rfl).symm m) = ix3 p m c := funext fun a => Fin.ext (by
    match a with
    | ⟨0, _⟩ => exact rhs_S320x25x5_S320x5x32_0 _ _
    | ⟨1, _⟩ => exact (rhs_S320x25x5_S320x5x32_1 _ _).trans hm
    | ⟨2, _⟩ => exact rhs_S320x25x5_S320x5x32_2 _ _)
  rw [el, er]

/-! ## A sum along each row -/

/-- The sum of a 320 × 128 block along its rows, at row p: the sum of the row's 128 entries. -/
theorem rowsum_apply (v : FVec Ideal S320x128 .f32) (h : S320x128.Reduces [1] S320) (hφ : FKind.Formats .f32)
    (hacc : (0x00000000#32 : BitVec 32) = 0x00000000#32) (p : Fin 320) :
    multiReduction .add [1] S320 v 0x00000000#32 h hφ hacc (ix1 p) = ∑ j : Fin 128, v (ix2 p j) :=
  (Ideal.multiReduction_add_single v 0x00000000#32 h hφ hacc (ix1 p)).trans
    (Finset.sum_congr rfl fun j _ => congrArg v (funext fun a => Fin.ext (by
      match a with
      | ⟨0, _⟩ => rfl
      | ⟨1, _⟩ => rfl)))

/-! ## Layouts -/

/-- A 128-vector laid out as one row and repeated down 320 rows reads, at (p, j), the vector at j. -/
theorem rowvec128_apply (v : FVec Ideal S128 .f32) (h1 : S128.ShapeCasts S1x128) (h2 : S1x128.Broadcasts S320x128)
    (p : Fin 320) (j : Fin 128) : broadcastTo S320x128 (shapeCast S1x128 v h1) h2 (ix2 p j) = v (ix1 j) :=
  (broadcastTo_1b_ab_apply (shapeCast S1x128 v h1) h2 p j).trans (shapeCast_a_1a_apply v h1 0 j)

/-- The same for a 160-vector. -/
theorem rowvec160_apply (v : FVec Ideal S160 .f32) (h1 : S160.ShapeCasts S1x160) (h2 : S1x160.Broadcasts S320x160)
    (p : Fin 320) (j : Fin 160) : broadcastTo S320x160 (shapeCast S1x160 v h1) h2 (ix2 p j) = v (ix1 j) :=
  (broadcastTo_1b_ab_apply (shapeCast S1x160 v h1) h2 p j).trans (shapeCast_a_1a_apply v h1 0 j)

/-- One number per row written as a column reads, at (p, 0), the number of row p. -/
theorem column_apply (v : FVec Ideal S320 .f32) (h : S320.ShapeCasts S320x1) (p : Fin 320) (u : Fin 1) :
    shapeCast S320x1 v h (ix2 p u) = v (ix1 p) := shapeCast_a_a1_apply v h p u

/-- A column of per-row numbers repeated along the 128 columns reads, at (p, j), the number of row p. -/
theorem columnAcross_apply (w : FVec Ideal S320x1 .f32) (h : S320x1.Broadcasts S320x128) (p : Fin 320) (j : Fin 128) :
    broadcastTo S320x128 w h (ix2 p j) = w (ix2 p (0 : Fin 1)) := broadcastTo_a1_ab_apply w h p j

/-- 160 entries per row read as a 5 × 32 matrix, row-major: entry (p, m, c) is entry (p, 32 m + c). -/
theorem rows5x32_apply (v : FVec Ideal S320x160 .f32) (h : S320x160.ShapeCasts S320x5x32) (p : Fin 320) (m : Fin 5) (c : Fin 32) :
    shapeCast S320x5x32 v h (ix3 p m c) = v (ix2 p (EdgeMsg.flat m c)) :=
  shapeCast_apply v h _ _ (by
    rw [Shape.rowMajor_val_two, Shape.rowMajor_val_three]
    show p.val * 160 + (m.val * 32 + c.val) = (p.val * 5 + m.val) * 32 + c.val
    omega)

/-- The leading 320 × 25 × 5 corner of a 320 × 25 × 19 block reads the block at the same coordinates. -/
theorem corner_apply (x : Vec Ideal S320x25x19 .f32) (p : Fin 320) (k : Fin 25) (m : Fin 5) :
    View.ld x r0_5 (ix3 p k m) = x (ix3 p k (EdgeMsg.col5 m)) :=
  congrArg x (funext fun a => Fin.ext (by
    match a with
    | ⟨0, _⟩ => show 0 + 1 * p.val = p.val; omega
    | ⟨1, _⟩ => show 0 + 1 * k.val = k.val; omega
    | ⟨2, _⟩ => show 0 + 1 * m.val = m.val; omega))

end Cert.KernelIdeal.EdgeBlock

end
-- ==== Proof.PayLayers.lean ====
/-
  The kernel body's arithmetic on a block of 320 edges, layer by layer, each named value read at one entry in terms of
  row p of its inputs: the first layer before its norm (three 128-term products and the bias); its mean column and its
  column of sums of squared deviations; the second layer through both norms up to the second gain; and the output block
  (the last bias and silu, the product with the 128 × 160 matrix, its 160 entries read as 5 × 32, and the rotation by the
  first five columns of each edge's 25 × 19 matrix). Changes of float format are the identity on extended reals, and a
  row sum is a finite sum, so each value is exactly the corresponding expression of the specification.
-/
import proofs.«167719_j84859963834920_2_alg».proof.Proof.PayOps

noncomputable section

namespace Cert.KernelIdeal.EdgeBlock

open Cert.KernelIdeal Cert.KernelIdeal.Gen Idealize.ShloMosaic Idealize.ShloMosaic.ValueIdx

theorem pay2_apply (v0 v2 v5 : Vec Ideal S320x128 .f32) (v8 v11 v14 : Vec Ideal S128x128 .f32) (v22 : Vec Ideal S128 .f32)
    (p : Fin 320) (j : Fin 128) :
    k0_pay2 (F := Ideal) v0 v2 v5 v8 v11 v14 v22 (ix2 p j)
      = EdgeMsg.hidden0 (fun i => v0 (ix2 p i)) (fun i => v2 (ix2 p i)) (fun i => v5 (ix2 p i))
          (fun i j => v8 (ix2 i j)) (fun i j => v11 (ix2 i j)) (fun i j => v14 (ix2 i j)) (fun j => v22 (ix1 j)) j := by
  unfold k0_pay2 EdgeMsg.hidden0
  dsimp only
  simp only [shapeCast_self, addf_apply]
  rw [matmul_128_apply, matmul_128_apply, matmul_128_apply, rowvec128_apply]
  simp only [truncf_apply]

/-- The mean column: at row p, the sum of the row's 128 entries divided by 128. -/
theorem pay3_apply (v0 v2 v5 : Vec Ideal S320x128 .f32) (v8 v11 v14 : Vec Ideal S128x128 .f32) (v22 : Vec Ideal S128 .f32)
    (p : Fin 320) (u : Fin 1) :
    k0_pay3 (F := Ideal) v0 v2 v5 v8 v11 v14 v22 (ix2 p u)
      = EdgeMsg.rowMean (fun j => k0_pay2 (F := Ideal) v0 v2 v5 v8 v11 v14 v22 (ix2 p j)) := by
  unfold k0_pay3 EdgeMsg.rowMean EdgeMsg.c128
  dsimp only
  simp only [divf_apply, broadcast_apply]
  rw [column_apply]
  exact congrArg (fun s => Ideal.div s (Ideal.ofBits .f32 0x43000000#32)) (rowsum_apply _ _ _ _ p)

/-- The column of sums of squared deviations: at row p, the sum over the row of (entry − mean)². -/
theorem pay4_apply (v0 v2 v5 : Vec Ideal S320x128 .f32) (v8 v11 v14 : Vec Ideal S128x128 .f32) (v22 : Vec Ideal S128 .f32)
    (p : Fin 320) (u : Fin 1) :
    k0_pay4 (F := Ideal) v0 v2 v5 v8 v11 v14 v22 (ix2 p u)
      = ∑ j : Fin 128, (k0_pay2 (F := Ideal) v0 v2 v5 v8 v11 v14 v22 (ix2 p j)
            - EdgeMsg.rowMean (fun j => k0_pay2 (F := Ideal) v0 v2 v5 v8 v11 v14 v22 (ix2 p j)))
          * (k0_pay2 (F := Ideal) v0 v2 v5 v8 v11 v14 v22 (ix2 p j)
            - EdgeMsg.rowMean (fun j => k0_pay2 (F := Ideal) v0 v2 v5 v8 v11 v14 v22 (ix2 p j))) := by
  unfold k0_pay4
  dsimp only
  rw [column_apply]
  refine (rowsum_apply _ _ _ _ p).trans ?_
  refine Finset.sum_congr rfl fun j _ => ?_
  simp only [mulf_apply, subf_apply]
  rw [columnAcross_apply, pay3_apply]

/-- The second layer up to its gain, on a block: given the first layer `v25`, its mean column `v31` and its column of
    sums of squared deviations `v36`, entry (p, j) is the normalised, gained second layer of row p:
    norm (silu (norm h · g₀ + β₀) · W₁ + b₁) · g₁ at j, with h row p of the first layer. -/
theorem pay5_apply (v25 : FVec Ideal S320x128 .f32) (v26 v27 : Vec Ideal S128 .f32) (v31 v36 : FVec Ideal S320x1 .f32)
    (c : Ideal .f32) (v55 : Vec Ideal S128x128 .f32) (v58 v62 : Vec Ideal S128 .f32) (p : Fin 320) (j : Fin 128)
    (hc : c = EdgeMsg.c128)
    (hmean : v31 (ix2 p (0 : Fin 1)) = EdgeMsg.rowMean (fun j => v25 (ix2 p j)))
    (hsq : v36 (ix2 p (0 : Fin 1)) = ∑ j : Fin 128, (v25 (ix2 p j) - EdgeMsg.rowMean (fun j => v25 (ix2 p j)))
        * (v25 (ix2 p j) - EdgeMsg.rowMean (fun j => v25 (ix2 p j)))) :
    k0_pay5 (F := Ideal) v25 v26 v27 v31 v36 c v55 v58 v62 (ix2 p j)
      = EdgeMsg.normed (EdgeMsg.dense (EdgeMsg.act (fun j => v25 (ix2 p j)) (fun j => v26 (ix1 j)) (fun j => v27 (ix1 j)))
          (fun i j => v55 (ix2 i j)) (fun j => v58 (ix1 j))) (fun j => v62 (ix1 j)) j := by
  subst hc
  unfold k0_pay5
  dsimp only
  simp only [mulf_apply, addf_apply, subf_apply, divf_apply, truncf_apply, broadcast_apply, rsqrt_apply, logistic_apply,
    matmul_128_apply, rowvec128_apply, column_apply, columnAcross_apply, hmean, hsq]
  repeat (rw [rowsum_apply]; simp only [mulf_apply, addf_apply, subf_apply, divf_apply, truncf_apply, broadcast_apply, rsqrt_apply, logistic_apply,
    matmul_128_apply, rowvec128_apply, column_apply, columnAcross_apply, hmean, hsq])
  unfold EdgeMsg.normed EdgeMsg.rowVar EdgeMsg.rowMean EdgeMsg.dense EdgeMsg.act EdgeMsg.silu EdgeMsg.normed EdgeMsg.rowVar
    EdgeMsg.rowMean EdgeMsg.eps EdgeMsg.c128
  rfl

/-- The output block from the gained second layer `v84`: entry (p, k, c) is the sum over the first five columns m of the
    p-th rotation matrix at (k, m) times the third layer of row p at 32 m + c, the third layer being
    silu (v84 row + β₁) · W₂ + b₂. -/
theorem pay1_apply (v63 : Vec Ideal S128 .f32) (v84 : FVec Ideal S320x128 .f32) (v91 : Vec Ideal S128x160 .f32)
    (v94 : Vec Ideal S160 .f32) (v100 : Vec Ideal S320x25x5 .f32) (p : Fin 320) (k : Fin 25) (c : Fin 32) :
    k0_pay1 (F := Ideal) v63 v84 v91 v94 v100 (ix3 p k c)
      = ∑ m : Fin 5, v100 (ix3 p k m) *
          EdgeMsg.dense (fun j => EdgeMsg.silu (v84 (ix2 p j) + v63 (ix1 j))) (fun i j => v91 (ix2 i j))
            (fun j => v94 (ix1 j)) (EdgeMsg.flat m c) := by
  unfold k0_pay1
  rw [matmul_rot_apply]
  simp only [truncf_apply, rows5x32_apply, addf_apply, mulf_apply, logistic_apply, matmul_160_apply, rowvec160_apply,
    rowvec128_apply]
  unfold EdgeMsg.dense EdgeMsg.silu
  rfl

end Cert.KernelIdeal.EdgeBlock

end
-- ==== Proof.Payload.lean ====
/-
  What the kernel's body leaves in its output block, read at one entry: entry (p, k, c) of the 320 × 25 × 32 block is
  the message of the block's p-th edge, a function of row p of the three 320 × 128 input blocks, of the p-th 25 × 19
  matrix, and of the (whole) weight blocks. The body stores once, through the whole block, and loads each input through
  its whole block (the rotation matrices through their leading 25 × 5 corner), so the block is the last layer's value.
-/
import proofs.«167719_j84859963834920_2_alg».proof.Proof.PayLayers

noncomputable section

namespace Cert.KernelIdeal.EdgeBlock

open Cert.KernelIdeal Cert.KernelIdeal.Gen Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (x0 x1 x2 : Vec Ideal S320x128 .f32) (x3 : Vec Ideal S320x25x19 .f32)
    (x4 x5 x6 : Vec Ideal S128x128 .f32) (x7 x8 x9 : Vec Ideal S128 .f32) (x10 : Vec Ideal S128x128 .f32)
    (x11 x12 x13 : Vec Ideal S128 .f32) (x14 : Vec Ideal S128x160 .f32) (x15 : Vec Ideal S160 .f32)
    (p : Fin 320) (k : Fin 25) (c : Fin 32) :
    out0_16 (F := Ideal) x0 x1 x2 x3 x4 x5 x6 x7 x8 x9 x10 x11 x12 x13 x14 x15 (ix3 p k c)
      = EdgeMsg.edgeOut (fun j => x0 (ix2 p j)) (fun j => x1 (ix2 p j)) (fun j => x2 (ix2 p j))
          (fun k' m => x3 (ix3 p k' m))
          (fun i j => x4 (ix2 i j)) (fun i j => x5 (ix2 i j)) (fun i j => x6 (ix2 i j))
          (fun j => x7 (ix1 j)) (fun j => x8 (ix1 j)) (fun j => x9 (ix1 j))
          (fun i j => x10 (ix2 i j)) (fun j => x11 (ix1 j)) (fun j => x12 (ix1 j)) (fun j => x13 (ix1 j))
          (fun i j => x14 (ix2 i j)) (fun j => x15 (ix1 j)) k c := by
  unfold out0_16
  rw [View.canon_unit_zero hz3]
  simp only [View.ld_unit_zero (S := S320x128) hz2, View.ld_unit_zero (S := S128x128) hz2, View.ld_unit_zero (S := S128) hz1,
    View.ld_unit_zero (S := S128x160) hz2, View.ld_unit_zero (S := S160) hz1]
  rw [pay1_apply]
  unfold EdgeMsg.edgeOut
  refine Finset.sum_congr rfl fun m _ => ?_
  rw [corner_apply]
  refine congrArg (fun d => x3 (ix3 p k (EdgeMsg.col5 m)) * d) ?_
  refine congrArg (fun f : Fin 128 → EReal => EdgeMsg.dense f (fun i j => x14 (ix2 i j)) (fun j => x15 (ix1 j)) (EdgeMsg.flat m c)) ?_
  funext j
  unfold EdgeMsg.act
  refine congrArg (fun d => EdgeMsg.silu (d + x13 (ix1 j))) ?_
  refine (pay5_apply _ _ _ _ _ _ _ _ _ p j rfl (pay3_apply _ _ _ _ _ _ _ p 0) (pay4_apply _ _ _ _ _ _ _ p 0)).trans ?_
  simp only [pay2_apply]
  rfl

end Cert.KernelIdeal.EdgeBlock

end
-- ==== Proof.KArrayMsgs.lean ====
/-
  The messages of all edges as one array.

  Entry (e, k, c) of the 320000 × 25 × 32 array is the message of edge e: the three-layer network applied to row e of
  the edge embeddings and of the two arrays of sender and receiver embeddings, rotated by the e-th 25 × 19 matrix. Every
  edge uses the same weights, so the entry depends on the edge only through row e of the first four arrays.
-/
import proofs.«167719_j84859963834920_2_alg».proof.Proof.Spec

noncomputable section

namespace Cert.EdgeMsg

open Idealize.ShloMosaic Idealize.ShloMosaic.ValueIdx

/-- The message of edge `e` at (k, c), from whole arrays: row `e` of `xs`, `ss`, `rs`, matrix `e` of `wig`, and the weights. -/
def msgAt (xs ss rs : (⟨2, ![320000, 128]⟩ : Shape).Idx → EReal) (wig : (⟨3, ![320000, 25, 19]⟩ : Shape).Idx → EReal)
    (We Ws Wr : (⟨2, ![128, 128]⟩ : Shape).Idx → EReal) (b0 g0 be0 : (⟨1, ![128]⟩ : Shape).Idx → EReal)
    (W1 : (⟨2, ![128, 128]⟩ : Shape).Idx → EReal) (b1 g1 be1 : (⟨1, ![128]⟩ : Shape).Idx → EReal)
    (W2 : (⟨2, ![128, 160]⟩ : Shape).Idx → EReal) (b2 : (⟨1, ![160]⟩ : Shape).Idx → EReal)
    (e : Fin 320000) (k : Fin 25) (c : Fin 32) : EReal :=
  edgeOut (fun j => xs (ix2 e j)) (fun j => ss (ix2 e j)) (fun j => rs (ix2 e j)) (fun k' m => wig (ix3 e k' m))
    (fun i j => We (ix2 i j)) (fun i j => Ws (ix2 i j)) (fun i j => Wr (ix2 i j))
    (fun j => b0 (ix1 j)) (fun j => g0 (ix1 j)) (fun j => be0 (ix1 j))
    (fun i j => W1 (ix2 i j)) (fun j => b1 (ix1 j)) (fun j => g1 (ix1 j)) (fun j => be1 (ix1 j))
    (fun i j => W2 (ix2 i j)) (fun j => b2 (ix1 j)) k c

/-- All messages: the 320000 × 25 × 32 array whose entry (e, k, c) is `msgAt … e k c`. -/
def msgs (xs ss rs : (⟨2, ![320000, 128]⟩ : Shape).Idx → EReal) (wig : (⟨3, ![320000, 25, 19]⟩ : Shape).Idx → EReal)
    (We Ws Wr : (⟨2, ![128, 128]⟩ : Shape).Idx → EReal) (b0 g0 be0 : (⟨1, ![128]⟩ : Shape).Idx → EReal)
    (W1 : (⟨2, ![128, 128]⟩ : Shape).Idx → EReal) (b1 g1 be1 : (⟨1, ![128]⟩ : Shape).Idx → EReal)
    (W2 : (⟨2, ![128, 160]⟩ : Shape).Idx → EReal) (b2 : (⟨1, ![160]⟩ : Shape).Idx → EReal) :
    (⟨3, ![320000, 25, 32]⟩ : Shape).Idx → EReal :=
  fun i => msgAt xs ss rs wig We Ws Wr b0 g0 be0 W1 b1 g1 be1 W2 b2 (i 0) (i 1) (i 2)

/-- The array read at coordinates. -/
theorem msgs_apply (xs ss rs : (⟨2, ![320000, 128]⟩ : Shape).Idx → EReal) (wig : (⟨3, ![320000, 25, 19]⟩ : Shape).Idx → EReal)
    (We Ws Wr : (⟨2, ![128, 128]⟩ : Shape).Idx → EReal) (b0 g0 be0 : (⟨1, ![128]⟩ : Shape).Idx → EReal)
    (W1 : (⟨2, ![128, 128]⟩ : Shape).Idx → EReal) (b1 g1 be1 : (⟨1, ![128]⟩ : Shape).Idx → EReal)
    (W2 : (⟨2, ![128, 160]⟩ : Shape).Idx → EReal) (b2 : (⟨1, ![160]⟩ : Shape).Idx → EReal)
    (e : Fin 320000) (k : Fin 25) (c : Fin 32) :
    msgs xs ss rs wig We Ws Wr b0 g0 be0 W1 b1 g1 be1 W2 b2 (ix3 e k c)
      = msgAt xs ss rs wig We Ws Wr b0 g0 be0 W1 b1 g1 be1 W2 b2 e k c := rfl

end Cert.EdgeMsg

end
-- ==== Proof.KArrayBlocks.lean ====
/-
  From blocks to the array: what the region leaves in the array of all messages.

  The grid has 1000 points; point t works on edges 320 t … 320 t + 319. Its blocks of the edge embeddings, of the
  two gathered embedding arrays and of the rotation matrices are rows 320 t … 320 t + 319 of those arrays, its
  blocks of the twelve weight arrays are the whole arrays, and it writes rows 320 t … 320 t + 319 of the result.
  Since the body's output at row p depends only on row p of the moving blocks, what point t writes is block t of one
  whole-array function: entry (e, k, c) is the message of edge e. Every row e lies in the block of point e / 320, so
  after the last point the array is that function.
-/
import proofs.«167719_j84859963834920_2_alg».proof.Proof.Gen.KernelIdeal.Frame
import proofs.«167719_j84859963834920_2_alg».proof.Proof.Payload
import proofs.«167719_j84859963834920_2_alg».proof.Proof.KArrayMsgs
import Idealize.ShloMosaic.Lib.Pipeline.Value
import Idealize.ShloMosaic.Lib.ValueIdx

noncomputable section

namespace Cert.KernelIdeal.EdgeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block index of every window at every point, decided over the grid: the five windows that move with the
    point are at block `t` along the edge axis and at block 0 along the others; the twelve weight windows stay at
    block 0. -/
theorem blockIndex : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 3) = t.val
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 1) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 1) = 0
    ∧ win0_13.index t (0 : Fin 1) = 0
    ∧ win0_14.index t (0 : Fin 2) = 0
    ∧ win0_14.index t (1 : Fin 2) = 0
    ∧ win0_15.index t (0 : Fin 1) = 0
    ∧ win0_16.index t (0 : Fin 3) = t.val
    ∧ win0_16.index t (1 : Fin 3) = 0
    ∧ win0_16.index t (2 : Fin 3) = 0 :=
  (by decide +kernel : ∀ t : Fin grid0.N, _)

/-- Row `p` of the block of point `t` is row `320 t + p` of the array. -/
def row (t : Fin cfg0.N) (p : Fin 320) : Fin 320000 :=
  ⟨t.val * 320 + p.val, by have h : cfg0.N = 1000 := N_0; have := t.isLt; have := p.isLt; omega⟩

/-- Window 0's block at point `t` is rows `320 t … 320 t + 319` of its array. -/
theorem block0_apply (c : Dev nD) (t : Fin cfg0.N) (p : Fin 320) (j : Fin 128) :
    iblk m c 0 t (ix2 p j) = V m c main_arg1 (ix2 (row t p) j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg1 (((cfg0.win 0).blk t).view.emb (ix2 p j)) = _
  refine congrArg (V m c main_arg1) ?_
  funext a
  apply Fin.ext
  match a with
  | ⟨0, _⟩ => show win0_0.index t (0 : Fin 2) * 320 + 1 * p.val = t.val * 320 + p.val; rw [h0_0]; omega
  | ⟨1, _⟩ => show win0_0.index t (1 : Fin 2) * 128 + 1 * j.val = j.val; rw [h0_1]; omega

/-- Window 1's block at point `t` is rows `320 t … 320 t + 319` of its array. -/
theorem block1_apply (c : Dev nD) (t : Fin cfg0.N) (p : Fin 320) (j : Fin 128) :
    iblk m c 1 t (ix2 p j) = V m c main_v15 (ix2 (row t p) j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_v15 (((cfg0.win 1).blk t).view.emb (ix2 p j)) = _
  refine congrArg (V m c main_v15) ?_
  funext a
  apply Fin.ext
  match a with
  | ⟨0, _⟩ => show win0_1.index t (0 : Fin 2) * 320 + 1 * p.val = t.val * 320 + p.val; rw [h1_0]; omega
  | ⟨1, _⟩ => show win0_1.index t (1 : Fin 2) * 128 + 1 * j.val = j.val; rw [h1_1]; omega

/-- Window 2's block at point `t` is rows `320 t … 320 t + 319` of its array. -/
theorem block2_apply (c : Dev nD) (t : Fin cfg0.N) (p : Fin 320) (j : Fin 128) :
    iblk m c 2 t (ix2 p j) = V m c main_v22 (ix2 (row t p) j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_v22 (((cfg0.win 2).blk t).view.emb (ix2 p j)) = _
  refine congrArg (V m c main_v22) ?_
  funext a
  apply Fin.ext
  match a with
  | ⟨0, _⟩ => show win0_2.index t (0 : Fin 2) * 320 + 1 * p.val = t.val * 320 + p.val; rw [h2_0]; omega
  | ⟨1, _⟩ => show win0_2.index t (1 : Fin 2) * 128 + 1 * j.val = j.val; rw [h2_1]; omega

/-- Window 3's block at point `t` is rows `320 t … 320 t + 319` of its array. -/
theorem block3_apply (c : Dev nD) (t : Fin cfg0.N) (p : Fin 320) (j : Fin 25) (l : Fin 19) :
    iblk m c 3 t (ix3 p j l) = V m c main_arg4 (ix3 (row t p) j l) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg4 (((cfg0.win 3).blk t).view.emb (ix3 p j l)) = _
  refine congrArg (V m c main_arg4) ?_
  funext a
  apply Fin.ext
  match a with
  | ⟨0, _⟩ => show win0_3.index t (0 : Fin 3) * 320 + 1 * p.val = t.val * 320 + p.val; rw [h3_0]; omega
  | ⟨1, _⟩ => show win0_3.index t (1 : Fin 3) * 25 + 1 * j.val = j.val; rw [h3_1]; omega
  | ⟨2, _⟩ => show win0_3.index t (2 : Fin 3) * 19 + 1 * l.val = l.val; rw [h3_2]; omega

/-- Window 4's block at every point is its whole array. -/
theorem block4_apply (c : Dev nD) (t : Fin cfg0.N) (i : Fin 128) (j : Fin 128) :
    iblk m c 4 t (ix2 i j) = V m c main_v23 (ix2 i j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_v23 (((cfg0.win 4).blk t).view.emb (ix2 i j)) = _
  refine congrArg (V m c main_v23) ?_
  funext a
  apply Fin.ext
  match a with
  | ⟨0, _⟩ => show win0_4.index t (0 : Fin 2) * 128 + 1 * i.val = i.val; rw [h4_0]; omega
  | ⟨1, _⟩ => show win0_4.index t (1 : Fin 2) * 128 + 1 * j.val = j.val; rw [h4_1]; omega

/-- Window 5's block at every point is its whole array. -/
theorem block5_apply (c : Dev nD) (t : Fin cfg0.N) (i : Fin 128) (j : Fin 128) :
    iblk m c 5 t (ix2 i j) = V m c main_v24 (ix2 i j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_v24 (((cfg0.win 5).blk t).view.emb (ix2 i j)) = _
  refine congrArg (V m c main_v24) ?_
  funext a
  apply Fin.ext
  match a with
  | ⟨0, _⟩ => show win0_5.index t (0 : Fin 2) * 128 + 1 * i.val = i.val; rw [h5_0]; omega
  | ⟨1, _⟩ => show win0_5.index t (1 : Fin 2) * 128 + 1 * j.val = j.val; rw [h5_1]; omega

/-- Window 6's block at every point is its whole array. -/
theorem block6_apply (c : Dev nD) (t : Fin cfg0.N) (i : Fin 128) (j : Fin 128) :
    iblk m c 6 t (ix2 i j) = V m c main_v25 (ix2 i j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_v25 (((cfg0.win 6).blk t).view.emb (ix2 i j)) = _
  refine congrArg (V m c main_v25) ?_
  funext a
  apply Fin.ext
  match a with
  | ⟨0, _⟩ => show win0_6.index t (0 : Fin 2) * 128 + 1 * i.val = i.val; rw [h6_0]; omega
  | ⟨1, _⟩ => show win0_6.index t (1 : Fin 2) * 128 + 1 * j.val = j.val; rw [h6_1]; omega

/-- Window 7's block at every point is its whole array. -/
theorem block7_apply (c : Dev nD) (t : Fin cfg0.N) (i : Fin 128) :
    iblk m c 7 t (ix1 i) = V m c main_arg7 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg7 (((cfg0.win 7).blk t).view.emb (ix1 i)) = _
  refine congrArg (V m c main_arg7) ?_
  funext a
  apply Fin.ext
  match a with
  | ⟨0, _⟩ => show win0_7.index t (0 : Fin 1) * 128 + 1 * i.val = i.val; rw [h7_0]; omega

/-- Window 8's block at every point is its whole array. -/
theorem block8_apply (c : Dev nD) (t : Fin cfg0.N) (i : Fin 128) :
    iblk m c 8 t (ix1 i) = V m c main_arg8 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg8 (((cfg0.win 8).blk t).view.emb (ix1 i)) = _
  refine congrArg (V m c main_arg8) ?_
  funext a
  apply Fin.ext
  match a with
  | ⟨0, _⟩ => show win0_8.index t (0 : Fin 1) * 128 + 1 * i.val = i.val; rw [h8_0]; omega

/-- Window 9's block at every point is its whole array. -/
theorem block9_apply (c : Dev nD) (t : Fin cfg0.N) (i : Fin 128) :
    iblk m c 9 t (ix1 i) = V m c main_arg9 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg9 (((cfg0.win 9).blk t).view.emb (ix1 i)) = _
  refine congrArg (V m c main_arg9) ?_
  funext a
  apply Fin.ext
  match a with
  | ⟨0, _⟩ => show win0_9.index t (0 : Fin 1) * 128 + 1 * i.val = i.val; rw [h9_0]; omega

/-- Window 10's block at every point is its whole array. -/
theorem block10_apply (c : Dev nD) (t : Fin cfg0.N) (i : Fin 128) (j : Fin 128) :
    iblk m c 10 t (ix2 i j) = V m c main_arg10 (ix2 i j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg10 (((cfg0.win 10).blk t).view.emb (ix2 i j)) = _
  refine congrArg (V m c main_arg10) ?_
  funext a
  apply Fin.ext
  match a with
  | ⟨0, _⟩ => show win0_10.index t (0 : Fin 2) * 128 + 1 * i.val = i.val; rw [h10_0]; omega
  | ⟨1, _⟩ => show win0_10.index t (1 : Fin 2) * 128 + 1 * j.val = j.val; rw [h10_1]; omega

/-- Window 11's block at every point is its whole array. -/
theorem block11_apply (c : Dev nD) (t : Fin cfg0.N) (i : Fin 128) :
    iblk m c 11 t (ix1 i) = V m c main_arg11 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg11 (((cfg0.win 11).blk t).view.emb (ix1 i)) = _
  refine congrArg (V m c main_arg11) ?_
  funext a
  apply Fin.ext
  match a with
  | ⟨0, _⟩ => show win0_11.index t (0 : Fin 1) * 128 + 1 * i.val = i.val; rw [h11_0]; omega

/-- Window 12's block at every point is its whole array. -/
theorem block12_apply (c : Dev nD) (t : Fin cfg0.N) (i : Fin 128) :
    iblk m c 12 t (ix1 i) = V m c main_arg12 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg12 (((cfg0.win 12).blk t).view.emb (ix1 i)) = _
  refine congrArg (V m c main_arg12) ?_
  funext a
  apply Fin.ext
  match a with
  | ⟨0, _⟩ => show win0_12.index t (0 : Fin 1) * 128 + 1 * i.val = i.val; rw [h12_0]; omega

/-- Window 13's block at every point is its whole array. -/
theorem block13_apply (c : Dev nD) (t : Fin cfg0.N) (i : Fin 128) :
    iblk m c 13 t (ix1 i) = V m c main_arg13 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg13 (((cfg0.win 13).blk t).view.emb (ix1 i)) = _
  refine congrArg (V m c main_arg13) ?_
  funext a
  apply Fin.ext
  match a with
  | ⟨0, _⟩ => show win0_13.index t (0 : Fin 1) * 128 + 1 * i.val = i.val; rw [h13_0]; omega

/-- Window 14's block at every point is its whole array. -/
theorem block14_apply (c : Dev nD) (t : Fin cfg0.N) (i : Fin 128) (j : Fin 160) :
    iblk m c 14 t (ix2 i j) = V m c main_arg14 (ix2 i j) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg14 (((cfg0.win 14).blk t).view.emb (ix2 i j)) = _
  refine congrArg (V m c main_arg14) ?_
  funext a
  apply Fin.ext
  match a with
  | ⟨0, _⟩ => show win0_14.index t (0 : Fin 2) * 128 + 1 * i.val = i.val; rw [h14_0]; omega
  | ⟨1, _⟩ => show win0_14.index t (1 : Fin 2) * 160 + 1 * j.val = j.val; rw [h14_1]; omega

/-- Window 15's block at every point is its whole array. -/
theorem block15_apply (c : Dev nD) (t : Fin cfg0.N) (i : Fin 160) :
    iblk m c 15 t (ix1 i) = V m c main_arg15 (ix1 i) := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  show V m c main_arg15 (((cfg0.win 15).blk t).view.emb (ix1 i)) = _
  refine congrArg (V m c main_arg15) ?_
  funext a
  apply Fin.ext
  match a with
  | ⟨0, _⟩ => show win0_15.index t (0 : Fin 1) * 160 + 1 * i.val = i.val; rw [h15_0]; omega

/-- The array of all messages, from the arrays as the region finds them. -/
def regionMsgs (c : Dev nD) : Buf (Elt Ideal) ((c : Thread nD τ).loc main_v26) :=
  EdgeMsg.msgs (V m c main_arg1) (V m c main_v15) (V m c main_v22) (V m c main_arg4) (V m c main_v23) (V m c main_v24) (V m c main_v25) (V m c main_arg7) (V m c main_arg8) (V m c main_arg9) (V m c main_arg10) (V m c main_arg11) (V m c main_arg12) (V m c main_arg13) (V m c main_arg14) (V m c main_arg15)

/-- Entry (p, k, c) of the output block of point `t` is entry (320 t + p, k, c) of the array. -/
theorem outIndex (t : Fin cfg0.N) (p : Fin 320) (k : Fin 25) (l : Fin 32) :
    ((cfg0.win 16).blk t).view.emb (ix3 p k l) = ix3 (row t p) k l := by
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  funext a
  apply Fin.ext
  match a with
  | ⟨0, _⟩ => show win0_16.index t (0 : Fin 3) * 320 + 1 * p.val = t.val * 320 + p.val; rw [h16_0]; omega
  | ⟨1, _⟩ => show win0_16.index t (1 : Fin 3) * 25 + 1 * k.val = k.val; rw [h16_1]; omega
  | ⟨2, _⟩ => show win0_16.index t (2 : Fin 3) * 32 + 1 * l.val = l.val; rw [h16_2]; omega

/-- What point `t` writes back is block `t` of the array of all messages. -/
theorem flushed_eq (c : Dev nD) (t : Fin cfg0.N) :
    (dats m 0 c).flushed 16 t = ((cfg0.win 16).blk t).view.read (Elt Ideal) (regionMsgs m c) := by
  show (cfg0.win 16).cut (grid0.coords t) ((dats m 0 c).after 16 t) = _
  rw [after0_16]
  funext y
  obtain ⟨p, k, l, rfl⟩ : ∃ (p : Fin 320) (k : Fin 25) (l : Fin 32), y = ix3 p k l := ⟨y 0, y 1, y 2, eq_ix3 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 p k l)
      = regionMsgs m c (((cfg0.win 16).blk t).view.emb (ix3 p k l))
  refine (EdgeBlock.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p k l).trans ?_
  rw [outIndex t p k l]
  unfold regionMsgs
  rw [EdgeMsg.msgs_apply]
  unfold EdgeMsg.msgAt
  simp only [block0_apply m c t, block1_apply m c t, block2_apply m c t, block3_apply m c t, block4_apply m c t, block5_apply m c t, block6_apply m c t, block7_apply m c t, block8_apply m c t, block9_apply m c t, block10_apply m c t, block11_apply m c t, block12_apply m c t, block13_apply m c t, block14_apply m c t, block15_apply m c t]

/-- Every entry of the array lies in the block of some point: row `e` in that of point `e / 320`. -/
theorem covered (c : Dev nD) (i : ((cfg0.win 16).arr.view.loc (c.tc : Thread nD τ)).2.ty.Idx) :
    ∃ t : Fin cfg0.N, (cfg0.win 16).flush t = true ∧ i ∈ ((cfg0.win 16).blk t).view.set := by
  have hN : cfg0.N = 1000 := N_0
  have h0 : (i 0).val < 320000 := (i 0).isLt
  have h1 : (i 1).val < 25 := (i 1).isLt
  have h2 : (i 2).val < 32 := (i 2).isLt
  let t : Fin cfg0.N := ⟨(i 0).val / 320, by omega⟩
  have ht : t.val = (i 0).val / 320 := rfl
  obtain ⟨h0_0, h0_1, h1_0, h1_1, h2_0, h2_1, h3_0, h3_1, h3_2, h4_0, h4_1, h5_0, h5_1, h6_0, h6_1, h7_0, h8_0, h9_0, h10_0, h10_1, h11_0, h12_0, h13_0, h14_0, h14_1, h15_0, h16_0, h16_1, h16_2⟩ := blockIndex t
  refine ⟨t, flush0_16 t, ?_⟩
  show i ∈ ((View.whole main_v26).slice (win0_16.rect t)).set
  rw [View.set_slice_whole, Rect.mem_set_unit]
  intro a
  match a with
  | ⟨0, _⟩ => show win0_16.index t (0 : Fin 3) * 320 ≤ (i 0).val ∧ (i 0).val < win0_16.index t (0 : Fin 3) * 320 + 320; rw [h16_0]; omega
  | ⟨1, _⟩ => show win0_16.index t (1 : Fin 3) * 25 ≤ (i 1).val ∧ (i 1).val < win0_16.index t (1 : Fin 3) * 25 + 25; rw [h16_1]; omega
  | ⟨2, _⟩ => show win0_16.index t (2 : Fin 3) * 32 ≤ (i 2).val ∧ (i 2).val < win0_16.index t (2 : Fin 3) * 32 + 32; rw [h16_2]; omega

/-- After the last point the region's output array is the array of all messages. -/
theorem final (c : Dev nD) : (dats m 0 c).arrAt 16 cfg0.N = regionMsgs m c :=
  (dats m 0 c).arrAt_eq_of_cover 16 (regionMsgs m c) (fun t _ => flushed_eq m c t) (covered c)

end Cert.KernelIdeal.EdgeArray

end
-- ==== Proof.HostPreRows.lean ====
/-
  The first-layer matrix by its three parts.

  The first layer multiplies the concatenation of the edge, sender and receiver embeddings (384 entries) by a
  384 × 128 matrix. Rows 0–127 of that matrix meet the edge embedding, rows 128–255 the sender's, rows 256–383 the
  receiver's; each part is a 128 × 128 matrix in its own right.
-/
import proofs.«167719_j84859963834920_2_alg».proof.Proof.Spec

noncomputable section

namespace Cert.EdgeMsg

open Idealize.ShloMosaic Idealize.ShloMosaic.ValueIdx

/-- 128 of the 384 rows of the first-layer matrix as a 128 × 128 array: row `i` of the part is row `r i` of the matrix. -/
def rowsOf (r : Fin 128 → Fin 384) (W : (⟨2, ![384, 128]⟩ : Shape).Idx → EReal) : (⟨2, ![128, 128]⟩ : Shape).Idx → EReal :=
  fun i => W (ix2 (r (i 0)) (i 1))

theorem rowsOf_apply (r : Fin 128 → Fin 384) (W : (⟨2, ![384, 128]⟩ : Shape).Idx → EReal) (i j : Fin 128) :
    rowsOf r W (ix2 i j) = W (ix2 (r i) j) := rfl

end Cert.EdgeMsg

end
-- ==== Proof.HostPreMsgs.lean ====
/-
  The array of all messages as a function of the sixteen argument arrays.

  The senders' and receivers' embedding rows are gathered on the host from the atom-embedding table; those gathers are
  kept unopened (whatever rows they select, both programs select the same). The first-layer matrix enters by its
  three 128-row parts.
-/
import proofs.«167719_j84859963834920_2_alg».proof.Proof.ReadP
import proofs.«167719_j84859963834920_2_alg».proof.Proof.KArrayMsgs
import proofs.«167719_j84859963834920_2_alg».proof.Proof.HostPreRows

noncomputable section

namespace Cert.EdgeMsg

open Cert.ReferenceIdeal Cert.ReferenceIdeal.Read Idealize.ShloMosaic

/-- All messages from the arguments: atom numbers `x0`, edge embeddings `x1`, senders `x2`, receivers `x3`, rotation
    matrices `x4`, the atom-embedding table `x5`, and the weights `x6 … x15`. -/
def hostMsgs (x0 : (⟨S20000, .i32⟩ : BufTy).Contents (Elt Ideal)) (x1 : (⟨S320000x128, .f32⟩ : BufTy).Contents (Elt Ideal)) (x2 : (⟨S320000, .i32⟩ : BufTy).Contents (Elt Ideal)) (x3 : (⟨S320000, .i32⟩ : BufTy).Contents (Elt Ideal)) (x4 : (⟨S320000x25x19, .f32⟩ : BufTy).Contents (Elt Ideal)) (x5 : (⟨S90x256, .f32⟩ : BufTy).Contents (Elt Ideal)) (x6 : (⟨S384x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x160, .f32⟩ : BufTy).Contents (Elt Ideal)) (x15 : (⟨S160, .f32⟩ : BufTy).Contents (Elt Ideal)) :
    (⟨S320000x25x32, .f32⟩ : BufTy).Contents (Elt Ideal) :=
  msgs x1 (val_main_v15 (F := Ideal) x0 x2 x5) (val_main_v22 (F := Ideal) x0 x3 x5) x4
    (rowsOf rowE x6) (rowsOf rowS x6) (rowsOf rowR x6) x7 x8 x9 x10 x11 x12 x13 x14 x15

end Cert.EdgeMsg

end
-- ==== Proof.HostPre.lean ====
/-
  What the region finds in the arrays the host wrote before it.

  Before the region the host gathers the sender and receiver embedding rows (two gathers from a table that is itself
  a gather of the atom-embedding table, cut into its left and right halves) and cuts the first-layer matrix into its
  three 128-row parts. The gathered arrays are kept as they are: the same operations, on the same inputs, that the
  reference program applies. The three parts are read entry by entry: entry (i, j) of a part is entry (o + i, j) of the
  matrix, with o = 0, 128, 256.
-/
import proofs.«167719_j84859963834920_2_alg».proof.Proof.Gen.KernelIdeal.Frame
import proofs.«167719_j84859963834920_2_alg».proof.Proof.ReadP
import proofs.«167719_j84859963834920_2_alg».proof.Proof.HostPreRows
import proofs.«167719_j84859963834920_2_alg».proof.Proof.HostPreMsgs
import proofs.«167719_j84859963834920_2_alg».proof.Proof.KArrayBlocks
import Idealize.ShloMosaic.Lib.ValueIdx
import Idealize.ShloMosaic.Lib.ValueLayout

noncomputable section

namespace Cert.KernelIdeal.HostPre

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The gathered sender rows: the reference's own gather of the same inputs. -/
theorem senders_eq (c : Dev nD) :
    V m c main_v15 = Cert.ReferenceIdeal.Read.val_main_v15 (F := Ideal) (m ((c.tc : Thread nD τ).loc main_arg0))
      (m ((c.tc : Thread nD τ).loc main_arg2)) (m ((c.tc : Thread nD τ).loc main_arg5)) := by
  show StableHlo.after hostOps0 (fun b => m (c, b)) (Proc.devRef .tc main_v15) = _
  after_results_simp <;> rfl

/-- The gathered receiver rows: the reference's own gather of the same inputs. -/
theorem receivers_eq (c : Dev nD) :
    V m c main_v22 = Cert.ReferenceIdeal.Read.val_main_v22 (F := Ideal) (m ((c.tc : Thread nD τ).loc main_arg0))
      (m ((c.tc : Thread nD τ).loc main_arg3)) (m ((c.tc : Thread nD τ).loc main_arg5)) := by
  show StableHlo.after hostOps0 (fun b => m (c, b)) (Proc.devRef .tc main_v22) = _
  after_results_simp <;> rfl

/-- Rows 0–127 of the first-layer matrix. -/
theorem partE_eq (c : Dev nD) :
    V m c main_v23 = EdgeMsg.rowsOf EdgeMsg.rowE (m ((c.tc : Thread nD τ).loc main_arg6)) := by
  have e : V m c main_v23 = extractStridedSlice S128x128 ![0, 0] (m ((c.tc : Thread nD τ).loc main_arg6)) slices_S384x128_S128x128_0_0 := by
    show StableHlo.after hostOps0 (fun b => m (c, b)) (Proc.devRef .tc main_v23) = _
    after_results <;> rfl
  rw [e]
  funext idx
  obtain ⟨i, j, rfl⟩ : ∃ (i j : Fin 128), idx = ix2 i j := ⟨idx 0, idx 1, eq_ix2 idx⟩
  rw [EdgeMsg.rowsOf_apply]
  exact slice2_axis0_apply 0 _ _ i j (EdgeMsg.rowE i) (by show i.val = 0 + i.val; omega)

/-- Rows 128–255 of the first-layer matrix. -/
theorem partS_eq (c : Dev nD) :
    V m c main_v24 = EdgeMsg.rowsOf EdgeMsg.rowS (m ((c.tc : Thread nD τ).loc main_arg6)) := by
  have e : V m c main_v24 = extractStridedSlice S128x128 ![128, 0] (m ((c.tc : Thread nD τ).loc main_arg6)) slices_S384x128_S128x128_128_0 := by
    show StableHlo.after hostOps0 (fun b => m (c, b)) (Proc.devRef .tc main_v24) = _
    after_results <;> rfl
  rw [e]
  funext idx
  obtain ⟨i, j, rfl⟩ : ∃ (i j : Fin 128), idx = ix2 i j := ⟨idx 0, idx 1, eq_ix2 idx⟩
  rw [EdgeMsg.rowsOf_apply]
  exact slice2_axis0_apply 128 _ _ i j (EdgeMsg.rowS i) rfl

/-- Rows 256–383 of the first-layer matrix. -/
theorem partR_eq (c : Dev nD) :
    V m c main_v25 = EdgeMsg.rowsOf EdgeMsg.rowR (m ((c.tc : Thread nD τ).loc main_arg6)) := by
  have e : V m c main_v25 = extractStridedSlice S128x128 ![256, 0] (m ((c.tc : Thread nD τ).loc main_arg6)) slices_S384x128_S128x128_256_0 := by
    show StableHlo.after hostOps0 (fun b => m (c, b)) (Proc.devRef .tc main_v25) = _
    after_results <;> rfl
  rw [e]
  funext idx
  obtain ⟨i, j, rfl⟩ : ∃ (i j : Fin 128), idx = ix2 i j := ⟨idx 0, idx 1, eq_ix2 idx⟩
  rw [EdgeMsg.rowsOf_apply]
  exact slice2_axis0_apply 256 _ _ i j (EdgeMsg.rowR i) rfl

/-- The array of all messages the region computes, from the arguments as launched: the arrays the host wrote before the
    region replaced by what they hold, the arguments it did not touch by their launch contents. -/
theorem regionMsgs_eq (c : Dev nD) :
    EdgeArray.regionMsgs m c = EdgeMsg.hostMsgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold EdgeArray.regionMsgs EdgeMsg.hostMsgs
  rw [V_main_arg1 m c, senders_eq m c, receivers_eq m c, V_main_arg4 m c, partE_eq m c, partS_eq m c, partR_eq m c,
    V_main_arg7 m c, V_main_arg8 m c, V_main_arg9 m c, V_main_arg10 m c, V_main_arg11 m c, V_main_arg12 m c,
    V_main_arg13 m c, V_main_arg14 m c, V_main_arg15 m c]

end Cert.KernelIdeal.HostPre

end
-- ==== Proof.HostTail.lean ====
/-
  After the region: from the array of all messages to the result.

  The host sums the messages by receiver — a scatter-add of the 320000 × 25 × 32 array into a zero array of
  20000 × 25 × 32 along the receivers' indices — and divides every entry by 5. Both programs end with these same
  operations, so they are kept as one function of the receivers and the message array and never opened: equal
  message arrays give equal results.
-/
import proofs.«167719_j84859963834920_2_alg».proof.Proof.Gen.KernelIdeal.Frame
import Idealize.ShloMosaic.Lib.Pipeline.Value
import Idealize.ShloMosaic.PureOps.Ideal

noncomputable section

namespace Cert.KernelIdeal.HostTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The sum of the messages by receiver, divided by 5: what the host computes after the region from the receivers'
    indices and the array of all messages. -/
def meanByReceiver (recv : (⟨S320000, .i32⟩ : BufTy).Contents (Elt Ideal))
    (A : (⟨S320000x25x32, .f32⟩ : BufTy).Contents (Elt Ideal)) : (⟨S20000x25x32, .f32⟩ : BufTy).Contents (Elt Ideal) :=
  Host.divf (F := Ideal)
    (Host.scatterAdd (F := Ideal) scatter_S20000x25x32_S320000x1_S320000x25x32_12_0_0_1
      (broadcastInDim S20000x25x32 ![] bcast_S_S20000x25x32 (constant (F := Ideal) S_ .f32 0x00000000#32))
      (broadcastInDim S320000x1 ![0] bcast_S320000_S320000x1_0 recv)
      A)
    (broadcastInDim S20000x25x32 ![] bcast_S_S20000x25x32 (constant (F := Ideal) S_ .f32 0x40A00000#32))

/-- The result buffer after the run: the host's last operations applied to the receivers as launched and to whatever
    the region left in its output array. -/
theorem result_eq (c : Dev nD) (A : Buf (Elt Ideal) ((c.tc : Thread nD τ).loc main_v26))
    (hA : (dats m 0 c).arrAt 16 cfg0.N = A) :
    Pipeline.afterTail₀ cfgs (dats m) 0 (V0 m) [hostOps1] c main_v31
      = meanByReceiver (m ((c.tc : Thread nD τ).loc main_arg3)) A := by
  unfold Pipeline.afterTail₀
  show StableHlo.after hostOps1 _ (Proc.devRef .tc main_v31) = _
  after_results
  rw [Pipeline.withArrays_of_ne _ c (V0 m c) _ main_arg3 (by exact (by decide : ∀ w, Pipeline.arrRef spec0 w ≠ main_arg3)),
    show Pipeline.withArrays (cfgs 0).spec c (V0 m c) (fun w => (dats m 0 c).arrAt w (cfgs 0).N) (Proc.devRef .tc main_v26) = A from
      (Pipeline.withArrays_arr spec0 launch0.win.arr_inj c _ _ 16).trans hA,
    show V0 m c (Proc.devRef .tc main_arg3) = m ((c.tc : Thread nD τ).loc main_arg3) from V_main_arg3 m c]
  rfl

set_option maxHeartbeats 1020000 in
/-- The kernel program's run with its result named: the result buffer ends at the sum by receiver, divided by 5, of
    whatever the region's output array is shown to hold after the last point; the arguments end as launched. -/
theorem run_of (ρ : Dev nD → PrngReg) (A : (c : Dev nD) → Buf (Elt Ideal) ((c.tc : Thread nD τ).loc main_v26))
    (hA : ∀ c, (dats m 0 c).arrAt 16 cfg0.N = A c) :
    θ_run defs (onTc (τ := τ) (main (F := Ideal))) ⟨m, fun _ => 0, ρ⟩ (fun r => ∀ c : Dev nD,
      r.2.mem ((c.tc : Thread nD τ).loc main_v31) = meanByReceiver (m ((c.tc : Thread nD τ).loc main_arg3)) (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_v31 (Pipeline.mem_restRefs_of main_v31 (by decide) (by decide))).trans (result_eq m c (A c) (hA c)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c)))⟩) (run_main m ρ)

end Cert.KernelIdeal.HostTail

end
-- ==== Proof.RefEdgeAlg.lean ====
/-
  Two regroupings of a finite sum, valid in every commutative additive monoid, and two facts about the words the
  reference writes for the number one.

  A sum over 384 rows is the sum over rows 0–127 plus the sum over rows 128–255 plus the sum over rows 256–383: this is
  what joins one 384-term product with a concatenated row to three 128-term products with its three parts. A sum over
  19 columns is the sum over the first five plus the sum over the remaining fourteen: when the fourteen terms are
  products with zero they vanish, because in the extended reals x · 0 = 0 for every x, infinite or not.
-/
import proofs.«167719_j84859963834920_2_alg».proof.Proof.Spec

noncomputable section

namespace Cert.ReferenceIdeal.EdgeRow

open Idealize.ShloMosaic Cert.EdgeMsg

/-- Column `5 + q` of nineteen: the fourteen columns after the first five. -/
def pad14 (q : Fin 14) : Fin 19 := ⟨5 + q.val, by have := q.isLt; omega⟩

/-- A sum over 384 indices, split at 128 and 256. -/
theorem sum384_split {M : Type} [AddCommMonoid M] (f : Fin 384 → M) :
    ∑ k, f k = ∑ i, f (rowE i) + ∑ i, f (rowS i) + ∑ i, f (rowR i) := by
  have h := Fin.sum_univ_add (M := M) (a := 128 + 128) (b := 128) f
  rw [Fin.sum_univ_add (a := 128) (b := 128)] at h
  exact h

/-- A sum over 19 indices, split at 5. -/
theorem sum19_split {M : Type} [AddCommMonoid M] (f : Fin 19 → M) :
    ∑ k, f k = ∑ m, f (col5 m) + ∑ q, f (pad14 q) :=
  Fin.sum_univ_add (M := M) (a := 5) (b := 14) f

/-- A sum of nineteen products whose last fourteen right factors are zero is the sum of the first five. -/
theorem sum19_pad (a b : Fin 19 → EReal) (hb : ∀ q, b (pad14 q) = 0) :
    ∑ k, a k * b k = ∑ m, a (col5 m) * b (col5 m) := by
  rw [sum19_split]
  simp only [hb, mul_zero, Finset.sum_const_zero, add_zero]

/-- The single-precision word `0x3F800000` is the number one. -/
theorem one_word : Ideal.ofBits .f32 0x3F800000#32 = 1 := by
  simp [Ideal.ofBits, Ideal.ieee]
  norm_cast
  norm_num

/-- `y · (1 / (1 + e⁻ʸ))`, with both ones written as single-precision words, is `silu y`. -/
theorem silu_words (y : EReal) :
    y * Ideal.div (Ideal.ofBits .f32 0x3F800000#32) (Ideal.ofBits .f32 0x3F800000#32 + Ideal.exp (-y)) = silu y := by
  rw [one_word]; rfl

end Cert.ReferenceIdeal.EdgeRow

end
-- ==== Proof.RefEdgeL0.lean ====
/-
  The reference's first layer, read one entry at a time. Row e of the joined array (edge embedding | gathered sender
  embedding | gathered receiver embedding) has 384 entries, the three 128-entry rows side by side, so its product with
  the 384-row matrix is the sum of the three 128-term products with the matrix's three row blocks. After the bias come
  the layer norm of the row (mean, variance, reciprocal square root, gain, offset — every row statistic is kept as a
  one-column matrix and repeated along the row) and silu. Each statement reads a stage of the reference at an entry
  of row e and says which function of row e's own data it is.
-/
import proofs.«167719_j84859963834920_2_alg».proof.Proof.ReadP
import proofs.«167719_j84859963834920_2_alg».proof.Proof.Spec
import proofs.«167719_j84859963834920_2_alg».proof.Proof.RefEdgeAlg
import Idealize.ShloMosaic.Lib.ValueIdx
import Idealize.ShloMosaic.Lib.Pipeline.Value
import Idealize.ShloMosaic.PureOps.Ideal.Laws

noncomputable section

namespace Cert.ReferenceIdeal.EdgeRow

open Cert.ReferenceIdeal Cert.ReferenceIdeal.Read Idealize.ShloMosaic Idealize.ShloMosaic.ValueIdx Cert.EdgeMsg

/-- Two indices of a literal rank-one shape are equal when their coordinates are. -/
local macro "idx1" : tactic => `(tactic| exact funext fun a => Fin.ext (by match a with | ⟨0, _⟩ => rfl))
/-- The same at rank two. -/
local macro "idx2" : tactic => `(tactic| exact funext fun a => Fin.ext (by match a with | ⟨0, _⟩ => rfl | ⟨1, _⟩ => rfl))
/-- The same at rank three. -/
local macro "idx3" : tactic =>
  `(tactic| exact funext fun a => Fin.ext (by match a with | ⟨0, _⟩ => rfl | ⟨1, _⟩ => rfl | ⟨2, _⟩ => rfl))

variable (x0 : (⟨S20000, .i32⟩ : BufTy).Contents (Elt Ideal)) (x1 : (⟨S320000x128, .f32⟩ : BufTy).Contents (Elt Ideal))
  (x2 x3 : (⟨S320000, .i32⟩ : BufTy).Contents (Elt Ideal)) (x5 : (⟨S90x256, .f32⟩ : BufTy).Contents (Elt Ideal))
  (x6 : (⟨S384x128, .f32⟩ : BufTy).Contents (Elt Ideal))
  (x7 x8 x9 : (⟨S128, .f32⟩ : BufTy).Contents (Elt Ideal))

/-- Row e of the first layer before its norm: the three 128-term products and the bias. -/
def h0 (e : Fin 320000) : Fin 128 → EReal :=
  hidden0 (fun j => x1 (ix2 e j)) (fun j => val_main_v15 (F := Ideal) x0 x2 x5 (ix2 e j))
    (fun j => val_main_v22 (F := Ideal) x0 x3 x5 (ix2 e j))
    (fun i j => x6 (ix2 (rowE i) j)) (fun i j => x6 (ix2 (rowS i) j)) (fun i j => x6 (ix2 (rowR i) j))
    (fun j => x7 (ix1 j))

/-- Entries 0–127 of row e of the joined array are row e of the edge embeddings. -/
theorem cat_E (e : Fin 320000) (i : Fin 128) :
    val_main_v23 (F := Ideal) x0 x1 x2 x3 x5 (ix2 e (rowE i)) = x1 (ix2 e i) := by
  unfold val_main_v23
  refine concatenate_apply_piece (t := S320000x384) 1 [⟨S320000x128, x1⟩, ⟨S320000x128, val_main_v15 (F := Ideal) x0 x2 x5⟩,
      ⟨S320000x128, val_main_v22 (F := Ideal) x0 x3 x5⟩] _ _
    0 (by show (0 : Nat) < 3; decide) S320000x128 x1 rfl rfl 0 rfl (ix2 e i) (fun b hb => ?_) ?_
  · match b with
    | ⟨0, _⟩ => rfl
    | ⟨1, _⟩ => exact absurd rfl hb
  · show 0 + i.val = i.val; omega

/-- Entries 128–255 are row e of the gathered sender embeddings. -/
theorem cat_S (e : Fin 320000) (i : Fin 128) :
    val_main_v23 (F := Ideal) x0 x1 x2 x3 x5 (ix2 e (rowS i)) = val_main_v15 (F := Ideal) x0 x2 x5 (ix2 e i) := by
  unfold val_main_v23
  refine concatenate_apply_piece (t := S320000x384) 1 [⟨S320000x128, x1⟩, ⟨S320000x128, val_main_v15 (F := Ideal) x0 x2 x5⟩,
      ⟨S320000x128, val_main_v22 (F := Ideal) x0 x3 x5⟩] _ _
    1 (by show (1 : Nat) < 3; decide) S320000x128 (val_main_v15 (F := Ideal) x0 x2 x5) rfl rfl 128 rfl
    (ix2 e i) (fun b hb => ?_) ?_
  · match b with
    | ⟨0, _⟩ => rfl
    | ⟨1, _⟩ => exact absurd rfl hb
  · rfl

/-- Entries 256–383 are row e of the gathered receiver embeddings. -/
theorem cat_R (e : Fin 320000) (i : Fin 128) :
    val_main_v23 (F := Ideal) x0 x1 x2 x3 x5 (ix2 e (rowR i)) = val_main_v22 (F := Ideal) x0 x3 x5 (ix2 e i) := by
  unfold val_main_v23
  refine concatenate_apply_piece (t := S320000x384) 1 [⟨S320000x128, x1⟩, ⟨S320000x128, val_main_v15 (F := Ideal) x0 x2 x5⟩,
      ⟨S320000x128, val_main_v22 (F := Ideal) x0 x3 x5⟩] _ _
    2 (by show (2 : Nat) < 3; decide) S320000x128 (val_main_v22 (F := Ideal) x0 x3 x5) rfl rfl 256 rfl
    (ix2 e i) (fun b hb => ?_) ?_
  · match b with
    | ⟨0, _⟩ => rfl
    | ⟨1, _⟩ => exact absurd rfl hb
  · rfl

/-- The 384-term product of row e with column j of the matrix is the three 128-term products. -/
theorem dot0_at (e : Fin 320000) (j : Fin 128) :
    val_main_v24 (F := Ideal) x0 x1 x2 x3 x5 x6 (ix2 e j)
      = (∑ i, x1 (ix2 e i) * x6 (ix2 (rowE i) j))
        + (∑ i, val_main_v15 (F := Ideal) x0 x2 x5 (ix2 e i) * x6 (ix2 (rowS i) j))
        + (∑ i, val_main_v22 (F := Ideal) x0 x3 x5 (ix2 e i) * x6 (ix2 (rowR i) j)) := by
  have hl : ∀ k : Fin 384, lidx_main_v24 (ix2 e j) k = ix2 e k := fun k => by idx2
  have hr : ∀ k : Fin 384, ridx_main_v24 (ix2 e j) k = ix2 k j := fun k => by idx2
  rw [val_main_v24_apply, sum384_split]
  simp only [hl, hr, cat_E, cat_S, cat_R]

/-- The bias, a vector repeated along every row. -/
theorem bias0_at (e : Fin 320000) (j : Fin 128) : val_main_v26 (F := Ideal) x7 (ix2 e j) = x7 (ix1 j) := by
  rw [val_main_v26_apply, val_main_v25_apply]; exact congrArg x7 (by idx1)

/-- The first layer before its norm, at entry j of row e. -/
theorem hid0_at (e : Fin 320000) (j : Fin 128) :
    val_main_v27 (F := Ideal) x0 x1 x2 x3 x5 x6 x7 (ix2 e j) = h0 x0 x1 x2 x3 x5 x6 x7 e j := by
  rw [val_main_v27_apply, dot0_at, bias0_at]
  all_goals rfl

/-- The row sum: the reduce's initial value is the zero word, and `0 + s = s`. -/
theorem sum0_at (e : Fin 320000) :
    val_main_v28 (F := Ideal) x0 x1 x2 x3 x5 x6 x7 (ix1 e)
      = ∑ k, (h0 x0 x1 x2 x3 x5 x6 x7 e) k := by
  rw [val_main_v28_apply, val_main_cst_apply, Ideal.ofBits_def, Ideal.ofBits_zero_f32, zero_add]
  refine Finset.sum_congr rfl fun k _ => ?_
  rw [show idx_main_v28 (ix1 e) k = ix2 e k by idx2, hid0_at]

/-- The row mean, kept as a one-column matrix. -/
theorem mean0_at (e : Fin 320000) (u : Fin 1) :
    val_main_v31 (F := Ideal) x0 x1 x2 x3 x5 x6 x7 (ix2 e u)
      = rowMean (h0 x0 x1 x2 x3 x5 x6 x7 e) := by
  rw [val_main_v31_apply, val_main_v29_apply, val_main_v30_apply, val_main_cst_5_apply,
    show idx_main_v29 (ix2 e u) = ix1 e by idx1, sum0_at]
  all_goals rfl

/-- The deviation from the row mean (the copy that is squared). -/
theorem dev0_at (e : Fin 320000) (j : Fin 128) :
    val_main_v33 (F := Ideal) x0 x1 x2 x3 x5 x6 x7 (ix2 e j)
      = (h0 x0 x1 x2 x3 x5 x6 x7 e) j - rowMean (h0 x0 x1 x2 x3 x5 x6 x7 e) := by
  rw [val_main_v33_apply, val_main_v32_apply, show idx_main_v32 (ix2 e j) = ix2 e (0 : Fin 1) by idx2,
    mean0_at, hid0_at]
  all_goals rfl

/-- The sum of the squared deviations. -/
theorem sqsum0_at (e : Fin 320000) :
    val_main_v35 (F := Ideal) x0 x1 x2 x3 x5 x6 x7 (ix1 e)
      = ∑ k, ((h0 x0 x1 x2 x3 x5 x6 x7 e) k - rowMean (h0 x0 x1 x2 x3 x5 x6 x7 e))
          * ((h0 x0 x1 x2 x3 x5 x6 x7 e) k - rowMean (h0 x0 x1 x2 x3 x5 x6 x7 e)) := by
  rw [val_main_v35_apply, val_main_cst_6_apply, Ideal.ofBits_def, Ideal.ofBits_zero_f32, zero_add]
  refine Finset.sum_congr rfl fun k _ => ?_
  rw [show idx_main_v35 (ix1 e) k = ix2 e k by idx2, val_main_v34_apply, dev0_at]
  all_goals rfl

/-- The row variance, kept as a one-column matrix. -/
theorem var0_at (e : Fin 320000) (u : Fin 1) :
    val_main_v38 (F := Ideal) x0 x1 x2 x3 x5 x6 x7 (ix2 e u)
      = rowVar (h0 x0 x1 x2 x3 x5 x6 x7 e) := by
  rw [val_main_v38_apply, val_main_v36_apply, val_main_v37_apply, val_main_cst_7_apply,
    show idx_main_v36 (ix2 e u) = ix1 e by idx1, sqsum0_at]
  all_goals rfl

/-- The deviation from the row mean (the copy that is normalised). -/
theorem dev0'_at (e : Fin 320000) (j : Fin 128) :
    val_main_v40 (F := Ideal) x0 x1 x2 x3 x5 x6 x7 (ix2 e j)
      = (h0 x0 x1 x2 x3 x5 x6 x7 e) j - rowMean (h0 x0 x1 x2 x3 x5 x6 x7 e) := by
  rw [val_main_v40_apply, val_main_v39_apply, show idx_main_v39 (ix2 e j) = ix2 e (0 : Fin 1) by idx2,
    mean0_at, hid0_at]
  all_goals rfl

/-- The reciprocal square root of the variance plus ε. -/
theorem rs0_at (e : Fin 320000) (u : Fin 1) :
    val_main_v43 (F := Ideal) x0 x1 x2 x3 x5 x6 x7 (ix2 e u)
      = Ideal.rsqrt (rowVar (h0 x0 x1 x2 x3 x5 x6 x7 e) + eps) := by
  rw [val_main_v43_apply, val_main_v42_apply, val_main_v41_apply, val_main_cst_8_apply, var0_at]
  all_goals rfl

/-- The gain, a vector repeated along every row. -/
theorem gain0_at (e : Fin 320000) (j : Fin 128) : val_main_v47 (F := Ideal) x8 (ix2 e j) = x8 (ix1 j) := by
  rw [val_main_v47_apply, val_main_v46_apply]; exact congrArg x8 (by idx1)

/-- The offset, a vector repeated along every row. -/
theorem offs0_at (e : Fin 320000) (j : Fin 128) : val_main_v50 (F := Ideal) x9 (ix2 e j) = x9 (ix1 j) := by
  rw [val_main_v50_apply, val_main_v49_apply]; exact congrArg x9 (by idx1)

/-- The normalised row times the gain plus the offset. -/
theorem pre0_at (e : Fin 320000) (j : Fin 128) :
    val_main_v51 (F := Ideal) x0 x1 x2 x3 x5 x6 x7 x8 x9 (ix2 e j)
      = normed (h0 x0 x1 x2 x3 x5 x6 x7 e) (fun j => x8 (ix1 j)) j + x9 (ix1 j) := by
  rw [val_main_v51_apply, val_main_v48_apply, val_main_v45_apply, val_main_v44_apply,
    show idx_main_v44 (ix2 e j) = ix2 e (0 : Fin 1) by idx2, rs0_at, dev0'_at, gain0_at, offs0_at]
  all_goals rfl

/-- silu of it: negate, exponential, one plus, one over, times. -/
theorem act0_at (e : Fin 320000) (j : Fin 128) :
    val_main_v52 (F := Ideal) x0 x1 x2 x3 x5 x6 x7 x8 x9 (ix2 e j)
      = act (h0 x0 x1 x2 x3 x5 x6 x7 e) (fun j => x8 (ix1 j)) (fun j => x9 (ix1 j)) j := by
  rw [val_main_v52_apply, val_main_call0_v5_apply, val_main_call0_v4_apply, val_main_call0_cst_0_apply,
    val_main_call0_v3_apply, val_main_call0_v2_apply, val_main_call0_cst_apply, val_main_call0_v1_apply,
    val_main_call0_v0_apply, pre0_at]
  exact silu_words _
end Cert.ReferenceIdeal.EdgeRow

end
-- ==== Proof.RefEdgeL1.lean ====
/-
  The reference's second layer, read one entry at a time: the 128-term product of the first layer's activated row e
  with the second matrix, the bias, then the same layer norm and silu as in the first layer, over the stages the
  second layer writes.
-/
import proofs.«167719_j84859963834920_2_alg».proof.Proof.ReadP
import proofs.«167719_j84859963834920_2_alg».proof.Proof.Spec
import proofs.«167719_j84859963834920_2_alg».proof.Proof.RefEdgeAlg
import proofs.«167719_j84859963834920_2_alg».proof.Proof.RefEdgeL0
import Idealize.ShloMosaic.Lib.ValueIdx
import Idealize.ShloMosaic.Lib.Pipeline.Value
import Idealize.ShloMosaic.PureOps.Ideal.Laws

noncomputable section

namespace Cert.ReferenceIdeal.EdgeRow

open Cert.ReferenceIdeal Cert.ReferenceIdeal.Read Idealize.ShloMosaic Idealize.ShloMosaic.ValueIdx Cert.EdgeMsg

/-- Two indices of a literal rank-one shape are equal when their coordinates are. -/
local macro "idx1" : tactic => `(tactic| exact funext fun a => Fin.ext (by match a with | ⟨0, _⟩ => rfl))
/-- The same at rank two. -/
local macro "idx2" : tactic => `(tactic| exact funext fun a => Fin.ext (by match a with | ⟨0, _⟩ => rfl | ⟨1, _⟩ => rfl))
/-- The same at rank three. -/
local macro "idx3" : tactic =>
  `(tactic| exact funext fun a => Fin.ext (by match a with | ⟨0, _⟩ => rfl | ⟨1, _⟩ => rfl | ⟨2, _⟩ => rfl))

variable (x0 : (⟨S20000, .i32⟩ : BufTy).Contents (Elt Ideal)) (x1 : (⟨S320000x128, .f32⟩ : BufTy).Contents (Elt Ideal))
  (x2 x3 : (⟨S320000, .i32⟩ : BufTy).Contents (Elt Ideal)) (x5 : (⟨S90x256, .f32⟩ : BufTy).Contents (Elt Ideal))
  (x6 : (⟨S384x128, .f32⟩ : BufTy).Contents (Elt Ideal))
  (x7 x8 x9 : (⟨S128, .f32⟩ : BufTy).Contents (Elt Ideal))
  (x10 : (⟨S128x128, .f32⟩ : BufTy).Contents (Elt Ideal)) (x11 x12 x13 : (⟨S128, .f32⟩ : BufTy).Contents (Elt Ideal))

/-- Row e after the first layer's norm and silu. -/
def a0 (e : Fin 320000) : Fin 128 → EReal :=
  act (h0 x0 x1 x2 x3 x5 x6 x7 e) (fun j => x8 (ix1 j)) (fun j => x9 (ix1 j))

/-- Row e of the second layer before its norm. -/
def h1 (e : Fin 320000) : Fin 128 → EReal :=
  dense (a0 x0 x1 x2 x3 x5 x6 x7 x8 x9 e) (fun i j => x10 (ix2 i j)) (fun j => x11 (ix1 j))

/-- The 128-term product of the activated row e with column j of the second matrix. -/
theorem dot1_at (e : Fin 320000) (j : Fin 128) :
    val_main_v53 (F := Ideal) x0 x1 x2 x3 x5 x6 x7 x8 x9 x10 (ix2 e j) = ∑ i, a0 x0 x1 x2 x3 x5 x6 x7 x8 x9 e i * x10 (ix2 i j) := by
  have hl : ∀ k : Fin 128, lidx_main_v53 (ix2 e j) k = ix2 e k := fun k => by idx2
  have hr : ∀ k : Fin 128, ridx_main_v53 (ix2 e j) k = ix2 k j := fun k => by idx2
  rw [val_main_v53_apply]
  refine Finset.sum_congr rfl fun k _ => ?_
  rw [hl, hr, act0_at]
  all_goals rfl

/-- The bias, a vector repeated along every row. -/
theorem bias1_at (e : Fin 320000) (j : Fin 128) : val_main_v55 (F := Ideal) x11 (ix2 e j) = x11 (ix1 j) := by
  rw [val_main_v55_apply, val_main_v54_apply]; exact congrArg x11 (by idx1)

/-- The second layer before its norm, at entry j of row e. -/
theorem hid1_at (e : Fin 320000) (j : Fin 128) :
    val_main_v56 (F := Ideal) x0 x1 x2 x3 x5 x6 x7 x8 x9 x10 x11 (ix2 e j) = h1 x0 x1 x2 x3 x5 x6 x7 x8 x9 x10 x11 e j := by
  rw [val_main_v56_apply, dot1_at, bias1_at]
  all_goals rfl

/-- The row sum: the reduce's initial value is the zero word, and `0 + s = s`. -/
theorem sum1_at (e : Fin 320000) :
    val_main_v57 (F := Ideal) x0 x1 x2 x3 x5 x6 x7 x8 x9 x10 x11 (ix1 e)
      = ∑ k, (h1 x0 x1 x2 x3 x5 x6 x7 x8 x9 x10 x11 e) k := by
  rw [val_main_v57_apply, val_main_cst_9_apply, Ideal.ofBits_def, Ideal.ofBits_zero_f32, zero_add]
  refine Finset.sum_congr rfl fun k _ => ?_
  rw [show idx_main_v57 (ix1 e) k = ix2 e k by idx2, hid1_at]

/-- The row mean, kept as a one-column matrix. -/
theorem mean1_at (e : Fin 320000) (u : Fin 1) :
    val_main_v60 (F := Ideal) x0 x1 x2 x3 x5 x6 x7 x8 x9 x10 x11 (ix2 e u)
      = rowMean (h1 x0 x1 x2 x3 x5 x6 x7 x8 x9 x10 x11 e) := by
  rw [val_main_v60_apply, val_main_v58_apply, val_main_v59_apply, val_main_cst_10_apply,
    show idx_main_v58 (ix2 e u) = ix1 e by idx1, sum1_at]
  all_goals rfl

/-- The deviation from the row mean (the copy that is squared). -/
theorem dev1_at (e : Fin 320000) (j : Fin 128) :
    val_main_v62 (F := Ideal) x0 x1 x2 x3 x5 x6 x7 x8 x9 x10 x11 (ix2 e j)
      = (h1 x0 x1 x2 x3 x5 x6 x7 x8 x9 x10 x11 e) j - rowMean (h1 x0 x1 x2 x3 x5 x6 x7 x8 x9 x10 x11 e) := by
  rw [val_main_v62_apply, val_main_v61_apply, show idx_main_v61 (ix2 e j) = ix2 e (0 : Fin 1) by idx2,
    mean1_at, hid1_at]
  all_goals rfl

/-- The sum of the squared deviations. -/
theorem sqsum1_at (e : Fin 320000) :
    val_main_v64 (F := Ideal) x0 x1 x2 x3 x5 x6 x7 x8 x9 x10 x11 (ix1 e)
      = ∑ k, ((h1 x0 x1 x2 x3 x5 x6 x7 x8 x9 x10 x11 e) k - rowMean (h1 x0 x1 x2 x3 x5 x6 x7 x8 x9 x10 x11 e))
          * ((h1 x0 x1 x2 x3 x5 x6 x7 x8 x9 x10 x11 e) k - rowMean (h1 x0 x1 x2 x3 x5 x6 x7 x8 x9 x10 x11 e)) := by
  rw [val_main_v64_apply, val_main_cst_11_apply, Ideal.ofBits_def, Ideal.ofBits_zero_f32, zero_add]
  refine Finset.sum_congr rfl fun k _ => ?_
  rw [show idx_main_v64 (ix1 e) k = ix2 e k by idx2, val_main_v63_apply, dev1_at]
  all_goals rfl

/-- The row variance, kept as a one-column matrix. -/
theorem var1_at (e : Fin 320000) (u : Fin 1) :
    val_main_v67 (F := Ideal) x0 x1 x2 x3 x5 x6 x7 x8 x9 x10 x11 (ix2 e u)
      = rowVar (h1 x0 x1 x2 x3 x5 x6 x7 x8 x9 x10 x11 e) := by
  rw [val_main_v67_apply, val_main_v65_apply, val_main_v66_apply, val_main_cst_12_apply,
    show idx_main_v65 (ix2 e u) = ix1 e by idx1, sqsum1_at]
  all_goals rfl

/-- The deviation from the row mean (the copy that is normalised). -/
theorem dev1'_at (e : Fin 320000) (j : Fin 128) :
    val_main_v69 (F := Ideal) x0 x1 x2 x3 x5 x6 x7 x8 x9 x10 x11 (ix2 e j)
      = (h1 x0 x1 x2 x3 x5 x6 x7 x8 x9 x10 x11 e) j - rowMean (h1 x0 x1 x2 x3 x5 x6 x7 x8 x9 x10 x11 e) := by
  rw [val_main_v69_apply, val_main_v68_apply, show idx_main_v68 (ix2 e j) = ix2 e (0 : Fin 1) by idx2,
    mean1_at, hid1_at]
  all_goals rfl

/-- The reciprocal square root of the variance plus ε. -/
theorem rs1_at (e : Fin 320000) (u : Fin 1) :
    val_main_v72 (F := Ideal) x0 x1 x2 x3 x5 x6 x7 x8 x9 x10 x11 (ix2 e u)
      = Ideal.rsqrt (rowVar (h1 x0 x1 x2 x3 x5 x6 x7 x8 x9 x10 x11 e) + eps) := by
  rw [val_main_v72_apply, val_main_v71_apply, val_main_v70_apply, val_main_cst_13_apply, var1_at]
  all_goals rfl

/-- The gain, a vector repeated along every row. -/
theorem gain1_at (e : Fin 320000) (j : Fin 128) : val_main_v76 (F := Ideal) x12 (ix2 e j) = x12 (ix1 j) := by
  rw [val_main_v76_apply, val_main_v75_apply]; exact congrArg x12 (by idx1)

/-- The offset, a vector repeated along every row. -/
theorem offs1_at (e : Fin 320000) (j : Fin 128) : val_main_v79 (F := Ideal) x13 (ix2 e j) = x13 (ix1 j) := by
  rw [val_main_v79_apply, val_main_v78_apply]; exact congrArg x13 (by idx1)

/-- The normalised row times the gain plus the offset. -/
theorem pre1_at (e : Fin 320000) (j : Fin 128) :
    val_main_v80 (F := Ideal) x0 x1 x2 x3 x5 x6 x7 x8 x9 x10 x11 x12 x13 (ix2 e j)
      = normed (h1 x0 x1 x2 x3 x5 x6 x7 x8 x9 x10 x11 e) (fun j => x12 (ix1 j)) j + x13 (ix1 j) := by
  rw [val_main_v80_apply, val_main_v77_apply, val_main_v74_apply, val_main_v73_apply,
    show idx_main_v73 (ix2 e j) = ix2 e (0 : Fin 1) by idx2, rs1_at, dev1'_at, gain1_at, offs1_at]
  all_goals rfl

/-- silu of it: negate, exponential, one plus, one over, times. -/
theorem act1_at (e : Fin 320000) (j : Fin 128) :
    val_main_v81 (F := Ideal) x0 x1 x2 x3 x5 x6 x7 x8 x9 x10 x11 x12 x13 (ix2 e j)
      = act (h1 x0 x1 x2 x3 x5 x6 x7 x8 x9 x10 x11 e) (fun j => x12 (ix1 j)) (fun j => x13 (ix1 j)) j := by
  rw [val_main_v81_apply, val_main_call1_v5_apply, val_main_call1_v4_apply, val_main_call1_cst_0_apply,
    val_main_call1_v3_apply, val_main_call1_v2_apply, val_main_call1_cst_apply, val_main_call1_v1_apply,
    val_main_call1_v0_apply, pre1_at]
  exact silu_words _
end Cert.ReferenceIdeal.EdgeRow

end
-- ==== Proof.RefEdge.lean ====
/-
  The reference's per-edge array before the scatter, read at one entry: entry (e, k, c) is the message of edge e, a
  function of row e of the edge embeddings and of the two gathered embedding arrays, of the e-th 25 × 19 matrix, and of
  the weights — the first-layer matrix by its three 128-row parts.

  The last layer's 160 outputs for edge e are read as a 5 × 32 matrix, padded with fourteen zero rows to 19 × 32, and
  multiplied on the left by the edge's 25 × 19 matrix. A product with zero is zero in the extended reals whatever the
  other factor, so of the nineteen terms of each entry only the first five remain: the edge's message.
-/
import proofs.«167719_j84859963834920_2_alg».proof.Proof.ReadP
import proofs.«167719_j84859963834920_2_alg».proof.Proof.Spec
import proofs.«167719_j84859963834920_2_alg».proof.Proof.RefEdgeAlg
import proofs.«167719_j84859963834920_2_alg».proof.Proof.RefEdgeL0
import proofs.«167719_j84859963834920_2_alg».proof.Proof.RefEdgeL1
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.EdgeRow

open Cert.ReferenceIdeal Cert.ReferenceIdeal.Read Idealize.ShloMosaic Idealize.ShloMosaic.ValueIdx Cert.EdgeMsg

/-- Two indices of a literal rank-one shape are equal when their coordinates are. -/
local macro "idx1" : tactic => `(tactic| exact funext fun a => Fin.ext (by match a with | ⟨0, _⟩ => rfl))
/-- The same at rank two. -/
local macro "idx2" : tactic => `(tactic| exact funext fun a => Fin.ext (by match a with | ⟨0, _⟩ => rfl | ⟨1, _⟩ => rfl))
/-- The same at rank three. -/
local macro "idx3" : tactic =>
  `(tactic| exact funext fun a => Fin.ext (by match a with | ⟨0, _⟩ => rfl | ⟨1, _⟩ => rfl | ⟨2, _⟩ => rfl))

section Stages
variable (x0 : (⟨S20000, .i32⟩ : BufTy).Contents (Elt Ideal)) (x1 : (⟨S320000x128, .f32⟩ : BufTy).Contents (Elt Ideal))
  (x2 x3 : (⟨S320000, .i32⟩ : BufTy).Contents (Elt Ideal)) (x5 : (⟨S90x256, .f32⟩ : BufTy).Contents (Elt Ideal))
  (x6 : (⟨S384x128, .f32⟩ : BufTy).Contents (Elt Ideal))
  (x7 x8 x9 : (⟨S128, .f32⟩ : BufTy).Contents (Elt Ideal))
  (x10 : (⟨S128x128, .f32⟩ : BufTy).Contents (Elt Ideal)) (x11 x12 x13 : (⟨S128, .f32⟩ : BufTy).Contents (Elt Ideal))
  (x14 : (⟨S128x160, .f32⟩ : BufTy).Contents (Elt Ideal)) (x15 : (⟨S160, .f32⟩ : BufTy).Contents (Elt Ideal))

/-- Row e after the second layer's norm and silu. -/
def a1 (e : Fin 320000) : Fin 128 → EReal :=
  act (h1 x0 x1 x2 x3 x5 x6 x7 x8 x9 x10 x11 e) (fun j => x12 (ix1 j)) (fun j => x13 (ix1 j))

/-- The 128-term product of the twice-activated row e with column n of the last matrix. -/
theorem dot2_at (e : Fin 320000) (n : Fin 160) :
    val_main_v82 (F := Ideal) x0 x1 x2 x3 x5 x6 x7 x8 x9 x10 x11 x12 x13 x14 (ix2 e n)
      = ∑ i, a1 x0 x1 x2 x3 x5 x6 x7 x8 x9 x10 x11 x12 x13 e i * x14 (ix2 i n) := by
  have hl : ∀ k : Fin 128, lidx_main_v82 (ix2 e n) k = ix2 e k := fun k => by idx2
  have hr : ∀ k : Fin 128, ridx_main_v82 (ix2 e n) k = ix2 k n := fun k => by idx2
  rw [val_main_v82_apply]
  refine Finset.sum_congr rfl fun k _ => ?_
  rw [hl, hr, act1_at]
  all_goals rfl

/-- The last bias, a vector repeated along every row. -/
theorem bias2_at (e : Fin 320000) (n : Fin 160) : val_main_v84 (F := Ideal) x15 (ix2 e n) = x15 (ix1 n) := by
  rw [val_main_v84_apply, val_main_v83_apply]; exact congrArg x15 (by idx1)

/-- The network's 160 outputs for edge e. -/
theorem out_at (e : Fin 320000) (n : Fin 160) :
    val_main_v85 (F := Ideal) x0 x1 x2 x3 x5 x6 x7 x8 x9 x10 x11 x12 x13 x14 x15 (ix2 e n)
      = dense (a1 x0 x1 x2 x3 x5 x6 x7 x8 x9 x10 x11 x12 x13 e) (fun i j => x14 (ix2 i j)) (fun j => x15 (ix1 j)) n := by
  rw [val_main_v85_apply, dot2_at, bias2_at]
  all_goals rfl

/-- The 160 outputs read as a 5 × 32 matrix, row-major: entry (m, c) is output 32 m + c. -/
theorem mat_at (e : Fin 320000) (m : Fin 5) (c : Fin 32) :
    val_main_v86 (F := Ideal) x0 x1 x2 x3 x5 x6 x7 x8 x9 x10 x11 x12 x13 x14 x15 (ix3 e m c)
      = val_main_v85 (F := Ideal) x0 x1 x2 x3 x5 x6 x7 x8 x9 x10 x11 x12 x13 x14 x15 (ix2 e (flat m c)) := by
  have hm := m.isLt
  have hc := c.isLt
  rw [val_main_v86_apply, show idx_main_v86 (ix3 e m c) = ix2 e (flat m c) from funext fun a => Fin.ext (by
    match a with
    | ⟨0, _⟩ => show ((e.val * 5 + m.val) * 32 + c.val) / 160 = e.val; omega
    | ⟨1, _⟩ => show ((e.val * 5 + m.val) * 32 + c.val) % 160 = m.val * 32 + c.val; omega)]

/-- The first five rows of the padded 19 × 32 matrix are the 5 × 32 matrix. -/
theorem pad_lo (e : Fin 320000) (m : Fin 5) (c : Fin 32) :
    val_main_v88 (F := Ideal) x0 x1 x2 x3 x5 x6 x7 x8 x9 x10 x11 x12 x13 x14 x15 (ix3 e (col5 m) c)
      = val_main_v86 (F := Ideal) x0 x1 x2 x3 x5 x6 x7 x8 x9 x10 x11 x12 x13 x14 x15 (ix3 e m c) := by
  unfold val_main_v88
  refine concatenate_pair_apply_left (t := S320000x19x32) (s₁ := S320000x5x32) (s₂ := S320000x14x32)
    1 _ _ _ _ rfl (ix3 e m c) (fun b => ?_)
  match b with
  | ⟨0, _⟩ => rfl
  | ⟨1, _⟩ => rfl
  | ⟨2, _⟩ => rfl

/-- Its other fourteen rows are zero. -/
theorem pad_hi (e : Fin 320000) (q : Fin 14) (c : Fin 32) :
    val_main_v88 (F := Ideal) x0 x1 x2 x3 x5 x6 x7 x8 x9 x10 x11 x12 x13 x14 x15 (ix3 e (pad14 q) c) = 0 := by
  unfold val_main_v88
  refine (concatenate_pair_apply_right (t := S320000x19x32) (s₁ := S320000x5x32) (s₂ := S320000x14x32)
    1 _ _ _ _ rfl rfl (ix3 e q c) (fun b hb => ?_) ?_).trans ?_
  · match b with
    | ⟨0, _⟩ => rfl
    | ⟨1, _⟩ => exact absurd rfl hb
    | ⟨2, _⟩ => rfl
  · show q.val + 5 = 5 + q.val; omega
  · rw [val_main_v87_apply, val_main_cst_14_apply, Ideal.ofBits_def, Ideal.ofBits_zero_f32]

end Stages

/-- The reference's per-edge array at entry (e, k, c): the contraction over all nineteen columns of the edge's matrix
    keeps only the first five, the padded rows being zero, and what it keeps is the message of edge e. -/
theorem v89_apply (x0 : (⟨S20000, .i32⟩ : BufTy).Contents (Elt Ideal)) (x1 : (⟨S320000x128, .f32⟩ : BufTy).Contents (Elt Ideal))
    (x2 x3 : (⟨S320000, .i32⟩ : BufTy).Contents (Elt Ideal)) (x4 : (⟨S320000x25x19, .f32⟩ : BufTy).Contents (Elt Ideal))
    (x5 : (⟨S90x256, .f32⟩ : BufTy).Contents (Elt Ideal)) (x6 : (⟨S384x128, .f32⟩ : BufTy).Contents (Elt Ideal))
    (x7 x8 x9 : (⟨S128, .f32⟩ : BufTy).Contents (Elt Ideal)) (x10 : (⟨S128x128, .f32⟩ : BufTy).Contents (Elt Ideal))
    (x11 x12 x13 : (⟨S128, .f32⟩ : BufTy).Contents (Elt Ideal)) (x14 : (⟨S128x160, .f32⟩ : BufTy).Contents (Elt Ideal))
    (x15 : (⟨S160, .f32⟩ : BufTy).Contents (Elt Ideal)) (e : Fin 320000) (k : Fin 25) (c : Fin 32) :
    val_main_v89 (F := Ideal) x0 x1 x2 x3 x4 x5 x6 x7 x8 x9 x10 x11 x12 x13 x14 x15 (ix3 e k c)
      = EdgeMsg.edgeOut (fun j => x1 (ix2 e j)) (fun j => val_main_v15 (F := Ideal) x0 x2 x5 (ix2 e j))
          (fun j => val_main_v22 (F := Ideal) x0 x3 x5 (ix2 e j)) (fun k' m => x4 (ix3 e k' m))
          (fun i j => x6 (ix2 (EdgeMsg.rowE i) j)) (fun i j => x6 (ix2 (EdgeMsg.rowS i) j))
          (fun i j => x6 (ix2 (EdgeMsg.rowR i) j))
          (fun j => x7 (ix1 j)) (fun j => x8 (ix1 j)) (fun j => x9 (ix1 j))
          (fun i j => x10 (ix2 i j)) (fun j => x11 (ix1 j)) (fun j => x12 (ix1 j)) (fun j => x13 (ix1 j))
          (fun i j => x14 (ix2 i j)) (fun j => x15 (ix1 j)) k c := by
  rw [val_main_v89_apply]
  refine (sum19_pad _ _ fun q => ?_).trans ?_
  · rw [show ridx_main_v89 (ix3 e k c) (pad14 q) = ix3 e (pad14 q) c by idx3]
    exact pad_hi x0 x1 x2 x3 x5 x6 x7 x8 x9 x10 x11 x12 x13 x14 x15 e q c
  · unfold edgeOut
    refine Finset.sum_congr rfl fun m _ => ?_
    rw [show lidx_main_v89 (ix3 e k c) (col5 m) = ix3 e k (col5 m) by idx3,
      show ridx_main_v89 (ix3 e k c) (col5 m) = ix3 e (col5 m) c by idx3, pad_lo, mat_at, out_at]
    all_goals rfl

end Cert.ReferenceIdeal.EdgeRow

end
-- ==== Proof.HostTailRef.lean ====
/-
  The reference's result is the same function of the same array.

  The reference contracts the 25 × 19 matrices with the 5 × 32 network output padded by fourteen zero rows, multiplies
  the concatenated embeddings by the whole 384-row matrix, and adds its sums onto an initial zero; entry by entry this
  is the same message as the kernel's. It then applies the same scatter-add and division. So its result is the sum by
  receiver, divided by 5, of the array of all messages.
-/
import proofs.«167719_j84859963834920_2_alg».proof.Proof.RefEdge
import proofs.«167719_j84859963834920_2_alg».proof.Proof.HostTail
import proofs.«167719_j84859963834920_2_alg».proof.Proof.HostPreMsgs

noncomputable section

namespace Cert.ReferenceIdeal.EdgeRef

open Cert.ReferenceIdeal Cert.ReferenceIdeal.Read Idealize.ShloMosaic Idealize.ShloMosaic.ValueIdx

/-- The reference's per-edge array before the scatter is the array of all messages. -/
theorem v89_eq (x0 : (⟨S20000, .i32⟩ : BufTy).Contents (Elt Ideal)) (x1 : (⟨S320000x128, .f32⟩ : BufTy).Contents (Elt Ideal)) (x2 : (⟨S320000, .i32⟩ : BufTy).Contents (Elt Ideal)) (x3 : (⟨S320000, .i32⟩ : BufTy).Contents (Elt Ideal)) (x4 : (⟨S320000x25x19, .f32⟩ : BufTy).Contents (Elt Ideal)) (x5 : (⟨S90x256, .f32⟩ : BufTy).Contents (Elt Ideal)) (x6 : (⟨S384x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x160, .f32⟩ : BufTy).Contents (Elt Ideal)) (x15 : (⟨S160, .f32⟩ : BufTy).Contents (Elt Ideal)) :
    val_main_v89 (F := Ideal) x0 x1 x2 x3 x4 x5 x6 x7 x8 x9 x10 x11 x12 x13 x14 x15 = EdgeMsg.hostMsgs x0 x1 x2 x3 x4 x5 x6 x7 x8 x9 x10 x11 x12 x13 x14 x15 := by
  funext i
  obtain ⟨e, k, c, rfl⟩ : ∃ (e : Fin 320000) (k : Fin 25) (c : Fin 32), i = ix3 e k c := ⟨i 0, i 1, i 2, eq_ix3 i⟩
  rw [EdgeRow.v89_apply]
  rfl

/-- The reference's result: the same last operations as the kernel program's, applied to the same array. -/
theorem result_eq (x0 : (⟨S20000, .i32⟩ : BufTy).Contents (Elt Ideal)) (x1 : (⟨S320000x128, .f32⟩ : BufTy).Contents (Elt Ideal)) (x2 : (⟨S320000, .i32⟩ : BufTy).Contents (Elt Ideal)) (x3 : (⟨S320000, .i32⟩ : BufTy).Contents (Elt Ideal)) (x4 : (⟨S320000x25x19, .f32⟩ : BufTy).Contents (Elt Ideal)) (x5 : (⟨S90x256, .f32⟩ : BufTy).Contents (Elt Ideal)) (x6 : (⟨S384x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128x160, .f32⟩ : BufTy).Contents (Elt Ideal)) (x15 : (⟨S160, .f32⟩ : BufTy).Contents (Elt Ideal)) :
    val_main_v94 (F := Ideal) x0 x1 x2 x3 x4 x5 x6 x7 x8 x9 x10 x11 x12 x13 x14 x15
      = Cert.KernelIdeal.HostTail.meanByReceiver x3 (EdgeMsg.hostMsgs x0 x1 x2 x3 x4 x5 x6 x7 x8 x9 x10 x11 x12 x13 x14 x15) := by
  unfold val_main_v94 val_main_v92
  rw [v89_eq]
  rfl

end Cert.ReferenceIdeal.EdgeRef

end
-- ==== Proof.lean ====
/-
  Both programs compute, for every receiving atom, the sum of the messages of its incoming edges, divided by 5.

  The message of an edge is a function of that edge's own rows of the embedding arrays, of its rotation matrix and of
  the weights (`Cert.EdgeMsg.edgeOut`). The kernel program computes the messages block by block, 320 edges at a time,
  from arrays the host prepared (gathered embedding rows, the first-layer matrix cut in three); the reference computes
  them all at once from the concatenated embeddings and the whole matrix, contracting all nineteen columns of each rotation matrix with the network's 5 × 32 output padded by fourteen zero rows. The two message arrays are equal entry by entry: a 384-term sum is regrouped as three 128-term
  sums, fourteen products with zero drop out, and a sum that starts from zero is the sum. Nothing needs the inputs to
  be finite: only that addition of extended reals is commutative and associative and that a product with zero is zero.
  Both programs then apply the same scatter-add by receiver and the same division by 5 to that one array.
-/
import proofs.«167719_j84859963834920_2_alg».proof.Defs
import proofs.«167719_j84859963834920_2_alg».proof.Proof.Gen.Kernel
import proofs.«167719_j84859963834920_2_alg».proof.Proof.Gen.Kernel.Skeleton
import proofs.«167719_j84859963834920_2_alg».proof.Proof.Gen.Kernel.Launch
import proofs.«167719_j84859963834920_2_alg».proof.Proof.Gen.Kernel.Points
import proofs.«167719_j84859963834920_2_alg».proof.Proof.Gen.Kernel.Frame
import proofs.«167719_j84859963834920_2_alg».proof.Proof.Gen.KernelIdeal
import proofs.«167719_j84859963834920_2_alg».proof.Proof.Gen.KernelIdeal.Skeleton
import proofs.«167719_j84859963834920_2_alg».proof.Proof.Gen.KernelIdeal.Launch
import proofs.«167719_j84859963834920_2_alg».proof.Proof.Gen.KernelIdeal.Points
import proofs.«167719_j84859963834920_2_alg».proof.Proof.Gen.KernelIdeal.Frame
import proofs.«167719_j84859963834920_2_alg».proof.Proof.Gen.ReferenceIdeal
import proofs.«167719_j84859963834920_2_alg».proof.Proof.Gen.Pre_finite_inputs
import proofs.«167719_j84859963834920_2_alg».proof.Proof.RunP
import proofs.«167719_j84859963834920_2_alg».proof.Proof.ReadP
import proofs.«167719_j84859963834920_2_alg».proof.Proof.ReadEqP
import proofs.«167719_j84859963834920_2_alg».proof.Proof.KArrayBlocks
import proofs.«167719_j84859963834920_2_alg».proof.Proof.HostPre
import proofs.«167719_j84859963834920_2_alg».proof.Proof.HostTail
import proofs.«167719_j84859963834920_2_alg».proof.Proof.HostTailRef
import Idealize.ShloMosaic.Adequacy
import Idealize.ShloMosaic.Init

noncomputable section

namespace Cert.Proof

open Idealize.ShloMosaic Idealize.SL.Sem

/-- The reference runs and leaves its arguments unchanged: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the sixteen arguments both programs end with the same result: the sum by receiver,
    divided by 5, of the array of all messages. -/
theorem algebraic : Cert.algebraic_KernelIdeal_ReferenceIdeal := by
  intro m ρ m' ρ' _ hagree
  refine ⟨fun c => Cert.KernelIdeal.HostTail.meanByReceiver (m ((c.tc : Thread Cert.KernelIdeal.nD Cert.KernelIdeal.τ).loc Cert.KernelIdeal.main_arg3)) (Cert.EdgeMsg.hostMsgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))),
    Cert.KernelIdeal.HostTail.run_of m ρ (fun c => Cert.EdgeMsg.hostMsgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      (fun c => (Cert.KernelIdeal.EdgeArray.final m c).trans (Cert.KernelIdeal.HostPre.regionMsgs_eq m c)), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v94_eq, e0, e1, e2, e3, e4, e5, e6, e7, e8, e9, e10, e11, e12, e13, e14, e15]
  exact Cert.ReferenceIdeal.EdgeRef.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
